-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S768x384 : Shape := ⟨2, ![768, 384]⟩
abbrev S384 : Shape := ⟨1, ![384]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_

variable [Facts]

def fn {F : FTy → Type} [FloatOps F] (main_arg0 : FVec F S64x3x224x224 .f32) (main_arg1 : FVec F S768x384 .f32) (main_arg2 : FVec F S384 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  main_v13
-- ==== Kernel.lean ====
abbrev S64x3x224x224 : Shape := ⟨4, ![64, 3, 224, 224]⟩
abbrev S768x384 : Shape := ⟨2, ![768, 384]⟩
abbrev S384 : Shape := ⟨1, ![384]⟩
abbrev S1x384 : Shape := ⟨2, ![1, 384]⟩
abbrev S64x196x384 : Shape := ⟨3, ![64, 196, 384]⟩
abbrev S8x3x224x224 : Shape := ⟨4, ![8, 3, 224, 224]⟩
abbrev S8x196x384 : Shape := ⟨3, ![8, 196, 384]⟩
abbrev S16x16x3x384 : Shape := ⟨4, ![16, 16, 3, 384]⟩
abbrev S16x3x16x384 : Shape := ⟨4, ![16, 3, 16, 384]⟩
abbrev S1x3x224x224 : Shape := ⟨4, ![1, 3, 224, 224]⟩
abbrev S3x224x224 : Shape := ⟨3, ![3, 224, 224]⟩
abbrev S3x14x16x224 : Shape := ⟨4, ![3, 14, 16, 224]⟩
abbrev S14x3x16x224 : Shape := ⟨4, ![14, 3, 16, 224]⟩
abbrev S14x48x224 : Shape := ⟨3, ![14, 48, 224]⟩
abbrev S14x224x48 : Shape := ⟨3, ![14, 224, 48]⟩
abbrev S14x14x16x48 : Shape := ⟨4, ![14, 14, 16, 48]⟩
abbrev S14x14x1x48 : Shape := ⟨4, ![14, 14, 1, 48]⟩
abbrev S14x14x48 : Shape := ⟨3, ![14, 14, 48]⟩
abbrev S14x14x96 : Shape := ⟨3, ![14, 14, 96]⟩
abbrev S14x14x192 : Shape := ⟨3, ![14, 14, 192]⟩
abbrev S14x14x384 : Shape := ⟨3, ![14, 14, 384]⟩
abbrev S14x14x768 : Shape := ⟨3, ![14, 14, 768]⟩
abbrev S196x768 : Shape := ⟨2, ![196, 768]⟩
abbrev S196x384 : Shape := ⟨2, ![196, 384]⟩
abbrev S1x196x384 : Shape := ⟨3, ![1, 196, 384]⟩

abbrev nBuf : Space → Nat
  | .hbm => 5
  | .vmem => 7
  | .smem => 0
  | _ => 0

abbrev bufTy : (tb : Table) → Fin (tcTables nBuf tb) → BufTy
  | .hbm, ⟨0, _⟩ => ⟨S64x3x224x224, .f32⟩
  | .hbm, ⟨1, _⟩ => ⟨S768x384, .f32⟩
  | .hbm, ⟨2, _⟩ => ⟨S384, .f32⟩
  | .hbm, ⟨3, _⟩ => ⟨S1x384, .f32⟩
  | .hbm, ⟨4, _⟩ => ⟨S64x196x384, .f32⟩
  | .local _ .vmem, ⟨0, _⟩ => ⟨S8x3x224x224, .f32⟩
  | .local _ .vmem, ⟨1, _⟩ => ⟨S8x3x224x224, .f32⟩
  | .local _ .vmem, ⟨2, _⟩ => ⟨S768x384, .f32⟩
  | .local _ .vmem, ⟨3, _⟩ => ⟨S1x384, .f32⟩
  | .local _ .vmem, ⟨4, _⟩ => ⟨S8x196x384, .f32⟩
  | .local _ .vmem, ⟨5, _⟩ => ⟨S8x196x384, .f32⟩
  | .local _ .vmem, ⟨6, _⟩ => ⟨S768x384, .bf16⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x196x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S384_S1x384 : S384.ShapeCasts S1x384
  inb_S768x384_S768x384_0_0 : ∀ a, (![0, 0] : Fin 2 → Nat) a + S768x384.size a ≤ S768x384.size a
  h_S768x384 : 0 < S768x384.numel
  shapeCasts_S768x384_S16x16x3x384 : S768x384.ShapeCasts S16x16x3x384
  transposes_S16x16x3x384_p1_2_0_3_S16x3x16x384 : S16x16x3x384.Transposes [1, 2, 0, 3] S16x3x16x384
  shapeCasts_S16x3x16x384_S768x384 : S16x3x16x384.ShapeCasts S768x384
  bitsLt_bf16_f32 : FTy.bits .bf16 < FTy.bits .f32
  shapeCasts_S768x384_S768x384 : S768x384.ShapeCasts S768x384
  packedbf16_S768x384_S768x384_0_0 : (Rect.unit (s := S768x384) ![0, 0] S768x384.size inb_S768x384_S768x384_0_0).PackedRows (EltTy.packing .bf16)
  inb_S8x3x224x224_S1x3x224x224_0_0_0_0 : ∀ a, (![0, 0, 0, 0] : Fin 4 → Nat) a + S1x3x224x224.size a ≤ S8x3x224x224.size a
  h_S1x3x224x224 : 0 < S1x3x224x224.numel
  shapeCasts_S1x3x224x224_S3x224x224 : S1x3x224x224.ShapeCasts S3x224x224
  shapeCasts_S3x224x224_S3x14x16x224 : S3x224x224.ShapeCasts S3x14x16x224
  transposes_S3x14x16x224_p1_0_2_3_S14x3x16x224 : S3x14x16x224.Transposes [1, 0, 2, 3] S14x3x16x224
  shapeCasts_S14x3x16x224_S14x48x224 : S14x3x16x224.ShapeCasts S14x48x224
  transposes_S14x48x224_p0_2_1_S14x224x48 : S14x48x224.Transposes [0, 2, 1] S14x224x48
  shapeCasts_S14x224x48_S14x14x16x48 : S14x224x48.ShapeCasts S14x14x16x48
  slices_S14x14x16x48_o0_0_0_0_S14x14x1x48 : S14x14x16x48.Slices ![0, 0, 0, 0] S14x14x1x48
  shapeCasts_S14x14x1x48_S14x14x48 : S14x14x1x48.ShapeCasts S14x14x48
  slices_S14x14x16x48_o0_0_1_0_S14x14x1x48 : S14x14x16x48.Slices ![0, 0, 1, 0] S14x14x1x48
  slices_S14x14x16x48_o0_0_2_0_S14x14x1x48 : S14x14x16x48.Slices ![0, 0, 2, 0] S14x14x1x48
  slices_S14x14x16x48_o0_0_3_0_S14x14x1x48 : S14x14x16x48.Slices ![0, 0, 3, 0] S14x14x1x48
  slices_S14x14x16x48_o0_0_4_0_S14x14x1x48 : S14x14x16x48.Slices ![0, 0, 4, 0] S14x14x1x48
  slices_S14x14x16x48_o0_0_5_0_S14x14x1x48 : S14x14x16x48.Slices ![0, 0, 5, 0] S14x14x1x48
  slices_S14x14x16x48_o0_0_6_0_S14x14x1x48 : S14x14x16x48.Slices ![0, 0, 6, 0] S14x14x1x48
  slices_S14x14x16x48_o0_0_7_0_S14x14x1x48 : S14x14x16x48.Slices ![0, 0, 7, 0] S14x14x1x48
  slices_S14x14x16x48_o0_0_8_0_S14x14x1x48 : S14x14x16x48.Slices ![0, 0, 8, 0] S14x14x1x48
  slices_S14x14x16x48_o0_0_9_0_S14x14x1x48 : S14x14x16x48.Slices ![0, 0, 9, 0] S14x14x1x48
  slices_S14x14x16x48_o0_0_10_0_S14x14x1x48 : S14x14x16x48.Slices ![0, 0, 10, 0] S14x14x1x48
  slices_S14x14x16x48_o0_0_11_0_S14x14x1x48 : S14x14x16x48.Slices ![0, 0, 11, 0] S14x14x1x48
  slices_S14x14x16x48_o0_0_12_0_S14x14x1x48 : S14x14x16x48.Slices ![0, 0, 12, 0] S14x14x1x48
  slices_S14x14x16x48_o0_0_13_0_S14x14x1x48 : S14x14x16x48.Slices ![0, 0, 13, 0] S14x14x1x48
  slices_S14x14x16x48_o0_0_14_0_S14x14x1x48 : S14x14x16x48.Slices ![0, 0, 14, 0] S14x14x1x48
  slices_S14x14x16x48_o0_0_15_0_S14x14x1x48 : S14x14x16x48.Slices ![0, 0, 15, 0] S14x14x1x48
  concatenates_S14x14x48_S14x14x48_S14x14x96_d2 : Shape.Concatenates [S14x14x48, S14x14x48] S14x14x96 2
  concatenates_S14x14x96_S14x14x96_S14x14x192_d2 : Shape.Concatenates [S14x14x96, S14x14x96] S14x14x192 2
  concatenates_S14x14x192_S14x14x192_S14x14x384_d2 : Shape.Concatenates [S14x14x192, S14x14x192] S14x14x384 2
  concatenates_S14x14x384_S14x14x384_S14x14x768_d2 : Shape.Concatenates [S14x14x384, S14x14x384] S14x14x768 2
  shapeCasts_S14x14x768_S196x768 : S14x14x768.ShapeCasts S196x768
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S196x384 : S1x384.Broadcasts S196x384
  inb_S8x196x384_S1x196x384_0_0_0 : ∀ a, (![0, 0, 0] : Fin 3 → Nat) a + S1x196x384.size a ≤ S8x196x384.size a
  h_S1x196x384 : 0 < S1x196x384.numel
  shapeCasts_S1x196x384_S196x384 : S1x196x384.ShapeCasts S196x384
  shapeCasts_S196x384_S1x196x384 : S196x384.ShapeCasts S1x196x384
  inb_S8x3x224x224_S1x3x224x224_1_0_0_0 : ∀ a, (![1, 0, 0, 0] : Fin 4 → Nat) a + S1x3x224x224.size a ≤ S8x3x224x224.size a
  inb_S8x196x384_S1x196x384_1_0_0 : ∀ a, (![1, 0, 0] : Fin 3 → Nat) a + S1x196x384.size a ≤ S8x196x384.size a
  inb_S8x3x224x224_S1x3x224x224_2_0_0_0 : ∀ a, (![2, 0, 0, 0] : Fin 4 → Nat) a + S1x3x224x224.size a ≤ S8x3x224x224.size a
  inb_S8x196x384_S1x196x384_2_0_0 : ∀ a, (![2, 0, 0] : Fin 3 → Nat) a + S1x196x384.size a ≤ S8x196x384.size a
  inb_S8x3x224x224_S1x3x224x224_3_0_0_0 : ∀ a, (![3, 0, 0, 0] : Fin 4 → Nat) a + S1x3x224x224.size a ≤ S8x3x224x224.size a
  inb_S8x196x384_S1x196x384_3_0_0 : ∀ a, (![3, 0, 0] : Fin 3 → Nat) a + S1x196x384.size a ≤ S8x196x384.size a
  inb_S8x3x224x224_S1x3x224x224_4_0_0_0 : ∀ a, (![4, 0, 0, 0] : Fin 4 → Nat) a + S1x3x224x224.size a ≤ S8x3x224x224.size a
  inb_S8x196x384_S1x196x384_4_0_0 : ∀ a, (![4, 0, 0] : Fin 3 → Nat) a + S1x196x384.size a ≤ S8x196x384.size a
  inb_S8x3x224x224_S1x3x224x224_5_0_0_0 : ∀ a, (![5, 0, 0, 0] : Fin 4 → Nat) a + S1x3x224x224.size a ≤ S8x3x224x224.size a
  inb_S8x196x384_S1x196x384_5_0_0 : ∀ a, (![5, 0, 0] : Fin 3 → Nat) a + S1x196x384.size a ≤ S8x196x384.size a
  inb_S8x3x224x224_S1x3x224x224_6_0_0_0 : ∀ a, (![6, 0, 0, 0] : Fin 4 → Nat) a + S1x3x224x224.size a ≤ S8x3x224x224.size a
  inb_S8x196x384_S1x196x384_6_0_0 : ∀ a, (![6, 0, 0] : Fin 3 → Nat) a + S1x196x384.size a ≤ S8x196x384.size a
  inb_S8x3x224x224_S1x3x224x224_7_0_0_0 : ∀ a, (![7, 0, 0, 0] : Fin 4 → Nat) a + S1x3x224x224.size a ≤ S8x3x224x224.size a
  inb_S8x196x384_S1x196x384_7_0_0 : ∀ a, (![7, 0, 0] : Fin 3 → Nat) a + S1x196x384.size a ≤ S8x196x384.size a
  dot_S196x768_S768x384_S196x384_1_0_0_1_n_n_wf : DotDims.WF S196x768 S768x384 S196x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x224x224.size a ≤ S64x3x224x224.size a
  hwx0_0 : ∀ i : grid0.Coords, EltTy.bits .f32 = 32 ∨ (Rect.block (s := S64x3x224x224) S8x3x224x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x196x384.size a ≤ S64x196x384.size a
  hwx0_3 : ∀ i : grid0.Coords, EltTy.bits .f32 = 32 ∨ (Rect.block (s := S64x196x384) S8x196x384.size (cc0_transform_3 i) (hinb0_3 i)).WholeWords (EltTy.packing .f32)

variable [Facts₀]

def dot_S196x768_S768x384_S196x384_1_0_0_1_n_n : DotDims S196x768 S768x384 S196x384 where
  lhsContracting := [1]
  rhsContracting := [0]
  lhsNonContracting := [0]
  rhsNonContracting := [1]
  lhsBatch := []
  rhsBatch := []
  wf := dot_S196x768_S768x384_S196x384_1_0_0_1_n_n_wf

abbrev win0_0 : Pipeline.Window sig grid0 :=
  Pipeline.Window.ofSpec (Memref.whole main_arg0) S8x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x196x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S768x384 : Shape := ⟨2, ![768, 384]⟩
abbrev S384 : Shape := ⟨1, ![384]⟩
abbrev S64x3x14x16x14x16 : Shape := ⟨6, ![64, 3, 14, 16, 14, 16]⟩
abbrev S64x14x14x16x16x3 : Shape := ⟨6, ![64, 14, 14, 16, 16, 3]⟩
abbrev S12544x768 : Shape := ⟨2, ![12544, 768]⟩
abbrev S1x384 : Shape := ⟨2, ![1, 384]⟩
abbrev S12544x384 : Shape := ⟨2, ![12544, 384]⟩
abbrev S64x196x384 : Shape := ⟨3, ![64, 196, 384]⟩
abbrev S256x768 : Shape := ⟨2, ![256, 768]⟩
abbrev S256x384 : Shape := ⟨2, ![256, 384]⟩

abbrev nBuf : Space → Nat
  | .hbm => 9
  | .vmem => 6
  | .smem => 0
  | _ => 0

abbrev bufTy : (tb : Table) → Fin (tcTables nBuf tb) → BufTy
  | .hbm, ⟨0, _⟩ => ⟨S64x3x224x224, .f32⟩
  | .hbm, ⟨1, _⟩ => ⟨S768x384, .f32⟩
  | .hbm, ⟨2, _⟩ => ⟨S384, .f32⟩
  | .hbm, ⟨3, _⟩ => ⟨S64x3x14x16x14x16, .f32⟩
  | .hbm, ⟨4, _⟩ => ⟨S64x14x14x16x16x3, .f32⟩
  | .hbm, ⟨5, _⟩ => ⟨S12544x768, .f32⟩
  | .hbm, ⟨6, _⟩ => ⟨S1x384, .f32⟩
  | .hbm, ⟨7, _⟩ => ⟨S12544x384, .f32⟩
  | .hbm, ⟨8, _⟩ => ⟨S64x196x384, .f32⟩
  | .local _ .vmem, ⟨0, _⟩ => ⟨S256x768, .f32⟩
  | .local _ .vmem, ⟨1, _⟩ => ⟨S256x768, .f32⟩
  | .local _ .vmem, ⟨2, _⟩ => ⟨S768x384, .f32⟩
  | .local _ .vmem, ⟨3, _⟩ => ⟨S1x384, .f32⟩
  | .local _ .vmem, ⟨4, _⟩ => ⟨S256x384, .f32⟩
  | .local _ .vmem, ⟨5, _⟩ => ⟨S256x384, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![49, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S64x3x224x224_S64x3x14x16x14x16 : S64x3x224x224.ShapeCasts S64x3x14x16x14x16
  transposes_S64x3x14x16x14x16_S64x14x14x16x16x3_0_2_4_3_5_1 : S64x3x14x16x14x16.Transposes [0, 2, 4, 3, 5, 1] S64x14x14x16x16x3
  shapeCasts_S64x14x14x16x16x3_S12544x768 : S64x14x14x16x16x3.ShapeCasts S12544x768
  shapeCasts_S384_S1x384 : S384.ShapeCasts S1x384
  shapeCasts_S12544x384_S64x196x384 : S12544x384.ShapeCasts S64x196x384
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x384_S768x384_0_0 : ∀ a, (![0, 0] : Fin 2 → Nat) a + S768x384.size a ≤ S768x384.size a
  h_S768x384 : 0 < S768x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S256x384_S256x384_0_0 : ∀ a, (![0, 0] : Fin 2 → Nat) a + S256x384.size a ≤ S256x384.size a
  h_S256x384 : 0 < S256x384.numel
  dot_S256x768_S768x384_S256x384_1_0_0_1_n_n_wf : DotDims.WF S256x768 S768x384 S256x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S12544x768.size a
  hwx0_0 : ∀ i : grid0.Coords, EltTy.bits .f32 = 32 ∨ (Rect.block (s := S12544x768) S256x768.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S12544x384.size a
  hwx0_3 : ∀ i : grid0.Coords, EltTy.bits .f32 = 32 ∨ (Rect.block (s := S12544x384) S256x384.size (cc0_transform_3 i) (hinb0_3 i)).WholeWords (EltTy.packing .f32)

variable [Facts₀]

def dot_S256x768_S768x384_S256x384_1_0_0_1_n_n : DotDims S256x768 S768x384 S256x384 where
  lhsContracting := [1]
  rhsContracting := [0]
  lhsNonContracting := [0]
  rhsNonContracting := [1]
  lhsBatch := []
  rhsBatch := []
  wf := dot_S256x768_S768x384_S256x384_1_0_0_1_n_n_wf

abbrev win0_0 : Pipeline.Window sig grid0 :=
  Pipeline.Window.ofSpec (Memref.whole main_call0_v2) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x384.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x384.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S256x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.PatchSpec.lean ====
/-
  The patch embedding as one function of its three arrays, on the extended reals.

  An image batch x[b, c, y, z] (64 × 3 × 224 × 224) is cut into 14 × 14 patches of 16 × 16 pixels.  Patch n = 14·h + w of
  image b, flattened in the order (p1, p2, c) — column k = (16·p1 + p2)·3 + c holds x[b, c, 16·h + p1, 16·w + p2] —, is a
  row of 768 numbers; the result is that row times the weight matrix w[768, 384] plus the bias:

      embed x w β (b, n, e) = Σ_k pix x b n k · w(k, e) + β(e).

  A program may flatten the patch in another order and permute the rows of the weight the same way: the sum then runs
  over the same 768 products in another order.  `colPerm` is the re-ordering (p2, c, p1) ↦ (p1, p2, c), a bijection of
  Fin 768, and `sum_colPerm` re-indexes a sum along it.  Only commutativity and associativity of the sum are used, so
  nothing here asks the entries to be finite.
-/
import Idealize.ShloMosaic.PureOps.Ideal.Laws
import Idealize.ShloMosaic.Lib.ValueIdx

noncomputable section

open scoped BigOperators

namespace Cert.PatchEmbed

open Idealize.ShloMosaic Idealize.ShloMosaic.ValueIdx

/-- The image batch, the weight matrix, the bias vector and the result, as arrays of extended reals. -/
abbrev Img : Type := (⟨4, ![64, 3, 224, 224]⟩ : Shape).Idx → EReal
abbrev Wt : Type := (⟨2, ![768, 384]⟩ : Shape).Idx → EReal
abbrev Bias : Type := (⟨1, ![384]⟩ : Shape).Idx → EReal
abbrev Out : Type := (⟨3, ![64, 196, 384]⟩ : Shape).Idx → EReal

/-- Entry k of patch n of image b, the patch flattened in the order (p1, p2, c): k = (16·p1 + p2)·3 + c, so the channel is
    k mod 3, the pixel row inside the patch k / 48, the pixel column (k / 3) mod 16; the patch is at row n / 14, column
    n mod 14 of the 14 × 14 grid of patches. -/
def pix (x : Img) (b : Fin 64) (n : Fin 196) (k : Fin 768) : EReal :=
  x (ix4 b (⟨k.val % 3, Nat.mod_lt _ (by norm_num)⟩ : Fin 3)
    (⟨n.val / 14 * 16 + k.val / 48, by have := n.isLt; have := k.isLt; omega⟩ : Fin 224)
    (⟨n.val % 14 * 16 + k.val / 3 % 16, by have := n.isLt; have := k.isLt; omega⟩ : Fin 224))

/-- The patch embedding: every patch row times the weight matrix, plus the bias. -/
def embed (x : Img) (w : Wt) (β : Bias) : Out := fun i =>
  (∑ k : Fin 768, pix x (⟨(i 0).val, (i 0).isLt⟩ : Fin 64) (⟨(i 1).val, (i 1).isLt⟩ : Fin 196) k
      * w (ix2 k (⟨(i 2).val, (i 2).isLt⟩ : Fin 384)))
    + β (ix1 (⟨(i 2).val, (i 2).isLt⟩ : Fin 384))

theorem embed_apply (x : Img) (w : Wt) (β : Bias) (b : Fin 64) (n : Fin 196) (e : Fin 384) :
    embed x w β (ix3 b n e) = (∑ k : Fin 768, pix x b n k * w (ix2 k e)) + β (ix1 e) := rfl

/-- The column (p2, c, p1) — position 48·p2 + 16·c + p1 — in the order (p1, p2, c): position (16·p1 + p2)·3 + c. -/
def permNat (k : ℕ) : ℕ := (k % 16 * 16 + k / 48) * 3 + k % 48 / 16

/-- The inverse re-ordering. -/
def permInvNat (k : ℕ) : ℕ := k / 3 % 16 * 48 + k % 3 * 16 + k / 48

/-- The digits of a column in the order (p2, c, p1). -/
theorem digits_kernel (k : ℕ) (hk : k < 768) :
    ∃ p2 c p1, p2 < 16 ∧ c < 3 ∧ p1 < 16 ∧ k = 48 * p2 + 16 * c + p1 :=
  ⟨k / 48, k % 48 / 16, k % 16, by omega, by omega, by omega, by omega⟩

/-- The digits of a column in the order (p1, p2, c). -/
theorem digits_reference (k : ℕ) (hk : k < 768) :
    ∃ p1 p2 c, p1 < 16 ∧ p2 < 16 ∧ c < 3 ∧ k = 48 * p1 + 3 * p2 + c :=
  ⟨k / 48, k % 48 / 3, k % 3, by omega, by omega, by omega, by omega⟩

/-- The re-ordering on digits: 48·p2 + 16·c + p1 ↦ 48·p1 + 3·p2 + c. -/
theorem permNat_digits (p2 c p1 : ℕ) (hp2 : p2 < 16) (hc : c < 3) (hp1 : p1 < 16) :
    permNat (48 * p2 + 16 * c + p1) = 48 * p1 + 3 * p2 + c := by
  unfold permNat
  have a1 : (48 * p2 + 16 * c + p1) % 16 = p1 := by omega
  have a2 : (48 * p2 + 16 * c + p1) / 48 = p2 := by omega
  have a3 : (48 * p2 + 16 * c + p1) % 48 / 16 = c := by omega
  rw [a1, a2, a3]; omega

/-- The inverse re-ordering on digits: 48·p1 + 3·p2 + c ↦ 48·p2 + 16·c + p1. -/
theorem permInvNat_digits (p1 p2 c : ℕ) (hp1 : p1 < 16) (hp2 : p2 < 16) (hc : c < 3) :
    permInvNat (48 * p1 + 3 * p2 + c) = 48 * p2 + 16 * c + p1 := by
  unfold permInvNat
  have b1 : (48 * p1 + 3 * p2 + c) / 3 = 16 * p1 + p2 := by omega
  have b2 : (48 * p1 + 3 * p2 + c) % 3 = c := by omega
  have b3 : (48 * p1 + 3 * p2 + c) / 48 = p1 := by omega
  have b4 : (16 * p1 + p2) % 16 = p2 := by omega
  rw [b1, b2, b3, b4]; omega

theorem permNat_lt (k : ℕ) (hk : k < 768) : permNat k < 768 := by
  obtain ⟨p2, c, p1, hp2, hc, hp1, rfl⟩ := digits_kernel k hk
  rw [permNat_digits p2 c p1 hp2 hc hp1]; omega

theorem permInvNat_lt (k : ℕ) (hk : k < 768) : permInvNat k < 768 := by
  obtain ⟨p1, p2, c, hp1, hp2, hc, rfl⟩ := digits_reference k hk
  rw [permInvNat_digits p1 p2 c hp1 hp2 hc]; omega

/-- The re-ordering of the columns, on Fin 768. -/
def colPerm (k : Fin 768) : Fin 768 := ⟨permNat k.val, permNat_lt k.val k.isLt⟩

/-- Its inverse. -/
def colPermInv (k : Fin 768) : Fin 768 := ⟨permInvNat k.val, permInvNat_lt k.val k.isLt⟩

theorem colPermInv_colPerm (k : Fin 768) : colPermInv (colPerm k) = k := by
  obtain ⟨kv, hk⟩ := k
  obtain ⟨p2, c, p1, hp2, hc, hp1, rfl⟩ := digits_kernel kv hk
  apply Fin.ext
  show permInvNat (permNat (48 * p2 + 16 * c + p1)) = 48 * p2 + 16 * c + p1
  rw [permNat_digits p2 c p1 hp2 hc hp1, permInvNat_digits p1 p2 c hp1 hp2 hc]

theorem colPerm_colPermInv (k : Fin 768) : colPerm (colPermInv k) = k := by
  obtain ⟨kv, hk⟩ := k
  obtain ⟨p1, p2, c, hp1, hp2, hc, rfl⟩ := digits_reference kv hk
  apply Fin.ext
  show permNat (permInvNat (48 * p1 + 3 * p2 + c)) = 48 * p1 + 3 * p2 + c
  rw [permInvNat_digits p1 p2 c hp1 hp2 hc, permNat_digits p2 c p1 hp2 hc hp1]

/-- The re-ordering of the 768 columns, as a bijection. -/
def colEquiv : Fin 768 ≃ Fin 768 := ⟨colPerm, colPermInv, colPermInv_colPerm, colPerm_colPermInv⟩

/-- A sum over the columns may be taken in the re-ordered order. -/
theorem sum_colPerm (f : Fin 768 → EReal) : ∑ k : Fin 768, f (colPerm k) = ∑ k : Fin 768, f k :=
  Equiv.sum_comp colEquiv f

/-- Entry k of the patch flattened in the order (p2, c, p1) — k = 48·p2 + 16·c + p1 — is the pixel
    x[b, (k mod 48) / 16, 16·h + k mod 16, 16·w + k / 48]; it is entry `colPerm k` of the patch in the order (p1, p2, c). -/
theorem pix_colPerm (x : Img) (b : Fin 64) (n : Fin 196) (k : Fin 768) :
    pix x b n (colPerm k)
      = x (ix4 b (⟨k.val % 48 / 16, by have := k.isLt; omega⟩ : Fin 3)
          (⟨n.val / 14 * 16 + k.val % 16, by have := n.isLt; have := k.isLt; omega⟩ : Fin 224)
          (⟨n.val % 14 * 16 + k.val / 48, by have := n.isLt; have := k.isLt; omega⟩ : Fin 224)) := by
  obtain ⟨kv, hk⟩ := k
  obtain ⟨p2, c, p1, hp2, hc, hp1, rfl⟩ := digits_kernel kv hk
  unfold pix colPerm
  have hn := n.isLt
  have e := permNat_digits p2 c p1 hp2 hc hp1
  have a1 : (48 * p2 + 16 * c + p1) % 16 = p1 := by omega
  have a2 : (48 * p2 + 16 * c + p1) / 48 = p2 := by omega
  have a3 : (48 * p2 + 16 * c + p1) % 48 / 16 = c := by omega
  have r1 : (48 * p1 + 3 * p2 + c) % 3 = c := by omega
  have r2 : (48 * p1 + 3 * p2 + c) / 48 = p1 := by omega
  have r3 : (48 * p1 + 3 * p2 + c) / 3 = 16 * p1 + p2 := by omega
  have r4 : (16 * p1 + p2) % 16 = p2 := by omega
  refine congrArg x (funext fun d => ?_)
  match d with
  | ⟨0, _⟩ => rfl
  | ⟨1, _⟩ =>
    apply Fin.ext
    show permNat (48 * p2 + 16 * c + p1) % 3 = (48 * p2 + 16 * c + p1) % 48 / 16
    rw [e, r1, a3]
  | ⟨2, _⟩ =>
    apply Fin.ext
    show n.val / 14 * 16 + permNat (48 * p2 + 16 * c + p1) / 48 = n.val / 14 * 16 + (48 * p2 + 16 * c + p1) % 16
    rw [e, r2, a1]
  | ⟨3, _⟩ =>
    apply Fin.ext
    show n.val % 14 * 16 + permNat (48 * p2 + 16 * c + p1) / 3 % 16 = n.val % 14 * 16 + (48 * p2 + 16 * c + p1) / 48
    rw [e, r3, r4, a2]

/-- The embedding with the patch and the weight rows both taken in the order (p2, c, p1): the same function. -/
theorem embed_apply_perm (x : Img) (w : Wt) (β : Bias) (b : Fin 64) (n : Fin 196) (e : Fin 384) :
    embed x w β (ix3 b n e)
      = (∑ k : Fin 768, pix x b n (colPerm k) * w (ix2 (colPerm k) e)) + β (ix1 e) := by
  rw [embed_apply, sum_colPerm (fun k => pix x b n k * w (ix2 k e))]

end Cert.PatchEmbed

end
-- ==== Proof.KernelLayout.lean ====
/-
  The kernel's data movement, read at an index.

  One image x[c, y, z] (3 × 224 × 224) is regrouped, by shape casts and two transposes, into R[h, w, p2, 16·c + p1] =
  x[c, 16·h + p1, 16·w + p2] (14 × 14 × 16 × 48).  The sixteen slices R[·, ·, p2, ·] are laid side by side along the last
  axis by a balanced tree of pairwise concatenations: `lanes R` (14 × 14 × 768), whose column k is lane k mod 48 of
  slice k / 48.
-/
import proofs.«135801_g2000606297638142_pallasbulk_1298_37_alg».proof.Proof.Gen.KernelIdeal.Skeleton
import proofs.«135801_g2000606297638142_pallasbulk_1298_37_alg».proof.Proof.PatchSpec
import Idealize.ShloMosaic.Lib.ValueIdx
import Idealize.ShloMosaic.Lib.ValueLayout
import Idealize.ShloMosaic.Lib.Pipeline.Value

noncomputable section

namespace Cert.KernelIdeal.Layout

open Cert.KernelIdeal Cert.KernelIdeal.Gen Idealize.ShloMosaic Idealize.ShloMosaic.ValueIdx

/-! ## Lanes laid side by side -/

section Join
variable {α : Type}

/-- Two neighbouring runs of lanes joined along the last axis.  If `x₁` holds the lanes of slices j₀, j₀ + 1, … (n₁ = 48·m₁
    columns) and `x₂` those of the slices that follow, their concatenation holds the lanes of slices j₀, j₀ + 1, … over
    n₁ + n₂ columns: column k is lane k mod 48 of slice j₀ + k / 48. -/
theorem join_lanes {a b n₁ n₂ n : ℕ} (X : (⟨4, ![a, b, 16, 48]⟩ : Shape).Idx → α)
    (x₁ : (⟨3, ![a, b, n₁]⟩ : Shape).Idx → α) (x₂ : (⟨3, ![a, b, n₂]⟩ : Shape).Idx → α)
    (h : Shape.Concatenates [⟨3, ![a, b, n₁]⟩, ⟨3, ![a, b, n₂]⟩] ⟨3, ![a, b, n]⟩ 2)
    (j₀ m₁ : ℕ) (hn₁ : n₁ = 48 * m₁) (hn : n = n₁ + n₂) (hj : 48 * j₀ + n ≤ 768)
    (h₁ : ∀ (p : Fin a) (q : Fin b) (k : Fin n₁),
      x₁ (ix3 p q k) = X (ix4 p q (⟨j₀ + k.val / 48, by have := k.isLt; omega⟩ : Fin 16) (⟨k.val % 48, Nat.mod_lt _ (by norm_num)⟩ : Fin 48)))
    (h₂ : ∀ (p : Fin a) (q : Fin b) (k : Fin n₂),
      x₂ (ix3 p q k) = X (ix4 p q (⟨j₀ + m₁ + k.val / 48, by have := k.isLt; omega⟩ : Fin 16) (⟨k.val % 48, Nat.mod_lt _ (by norm_num)⟩ : Fin 48)))
    (p : Fin a) (q : Fin b) (k : Fin n) :
    concatenate ⟨3, ![a, b, n]⟩ 2 [⟨⟨3, ![a, b, n₁]⟩, x₁⟩, ⟨⟨3, ![a, b, n₂]⟩, x₂⟩] h (ix3 p q k)
      = X (ix4 p q (⟨j₀ + k.val / 48, by have := k.isLt; omega⟩ : Fin 16) (⟨k.val % 48, Nat.mod_lt _ (by norm_num)⟩ : Fin 48)) := by
  have hk := k.isLt
  by_cases hlt : k.val < n₁
  · rw [concatenate_pair_apply_left 2 x₁ x₂ h (ix3 p q k) rfl (ix3 p q (⟨k.val, hlt⟩ : Fin n₁)) (fun d => by
        match d with
        | ⟨0, _⟩ => rfl
        | ⟨1, _⟩ => rfl
        | ⟨2, _⟩ => rfl)]
    exact h₁ p q ⟨k.val, hlt⟩
  · rw [concatenate_pair_apply_right 2 x₁ x₂ h (ix3 p q k) rfl rfl (ix3 p q (⟨k.val - n₁, by omega⟩ : Fin n₂)) (fun d hd => by
        match d with
        | ⟨0, _⟩ => rfl
        | ⟨1, _⟩ => rfl
        | ⟨2, _⟩ => exact absurd rfl hd) (by show k.val - n₁ + n₁ = k.val; omega)]
    rw [h₂ p q ⟨k.val - n₁, by omega⟩]
    refine congrArg X (funext fun d => ?_)
    match d with
    | ⟨0, _⟩ => rfl
    | ⟨1, _⟩ => rfl
    | ⟨2, _⟩ =>
      apply Fin.ext
      show j₀ + m₁ + (k.val - n₁) / 48 = j₀ + k.val / 48
      omega
    | ⟨3, _⟩ =>
      apply Fin.ext
      show (k.val - n₁) % 48 = k.val % 48
      omega

/-- Slice j of the regrouped image, its unit axis dropped: lane k of slice j. -/
theorem lane_leaf (X : (⟨4, ![14, 14, 16, 48]⟩ : Shape).Idx → α) (j : ℕ) (hj : j < 16)
    (hs : (⟨4, ![14, 14, 16, 48]⟩ : Shape).Slices ![0, 0, j, 0] ⟨4, ![14, 14, 1, 48]⟩)
    (hc : (⟨4, ![14, 14, 1, 48]⟩ : Shape).ShapeCasts ⟨3, ![14, 14, 48]⟩)
    (p : Fin 14) (q : Fin 14) (k : Fin 48) :
    shapeCast ⟨3, ![14, 14, 48]⟩ (extractStridedSlice ⟨4, ![14, 14, 1, 48]⟩ ![0, 0, j, 0] X hs) hc (ix3 p q k)
      = X (ix4 p q (⟨j + k.val / 48, by have := k.isLt; omega⟩ : Fin 16) (⟨k.val % 48, Nat.mod_lt _ (by norm_num)⟩ : Fin 48)) := by
  have hk := k.isLt
  rw [shapeCast_apply _ hc (ix3 p q k) (ix4 p q (0 : Fin 1) k) (by
        rw [Shape.rowMajor_val_four, Shape.rowMajor_val_three]
        show ((p.val * 14 + q.val) * 1 + 0) * 48 + k.val = (p.val * 14 + q.val) * 48 + k.val
        omega),
    slice4_axis2_apply j X hs p q (0 : Fin 1) k (⟨j, hj⟩ : Fin 16) (by show j = j + 0; omega)]
  refine congrArg X (funext fun d => ?_)
  match d with
  | ⟨0, _⟩ => rfl
  | ⟨1, _⟩ => rfl
  | ⟨2, _⟩ =>
    apply Fin.ext
    show j = j + k.val / 48
    omega
  | ⟨3, _⟩ =>
    apply Fin.ext
    show k.val = k.val % 48
    omega

end Join

/-! ## The sixteen slices side by side -/

section Lanes
variable {F : FTy → Type} [FloatOps F]

/-- The sixteen slices of the regrouped image laid side by side along the last axis: the body's slices, their unit axis
    dropped, joined by its balanced tree of pairwise concatenations. -/
def lanes (X : FVec F S14x14x16x48 .bf16) : FVec F S14x14x768 .bf16 :=
  have s0 : FVec F S14x14x48 .bf16 := shapeCast S14x14x48 (extractStridedSlice S14x14x1x48 ![0, 0, 0, 0] X slices_S14x14x16x48_o0_0_0_0_S14x14x1x48) shapeCasts_S14x14x1x48_S14x14x48
  have s1 : FVec F S14x14x48 .bf16 := shapeCast S14x14x48 (extractStridedSlice S14x14x1x48 ![0, 0, 1, 0] X slices_S14x14x16x48_o0_0_1_0_S14x14x1x48) shapeCasts_S14x14x1x48_S14x14x48
  have s2 : FVec F S14x14x48 .bf16 := shapeCast S14x14x48 (extractStridedSlice S14x14x1x48 ![0, 0, 2, 0] X slices_S14x14x16x48_o0_0_2_0_S14x14x1x48) shapeCasts_S14x14x1x48_S14x14x48
  have s3 : FVec F S14x14x48 .bf16 := shapeCast S14x14x48 (extractStridedSlice S14x14x1x48 ![0, 0, 3, 0] X slices_S14x14x16x48_o0_0_3_0_S14x14x1x48) shapeCasts_S14x14x1x48_S14x14x48
  have s4 : FVec F S14x14x48 .bf16 := shapeCast S14x14x48 (extractStridedSlice S14x14x1x48 ![0, 0, 4, 0] X slices_S14x14x16x48_o0_0_4_0_S14x14x1x48) shapeCasts_S14x14x1x48_S14x14x48
  have s5 : FVec F S14x14x48 .bf16 := shapeCast S14x14x48 (extractStridedSlice S14x14x1x48 ![0, 0, 5, 0] X slices_S14x14x16x48_o0_0_5_0_S14x14x1x48) shapeCasts_S14x14x1x48_S14x14x48
  have s6 : FVec F S14x14x48 .bf16 := shapeCast S14x14x48 (extractStridedSlice S14x14x1x48 ![0, 0, 6, 0] X slices_S14x14x16x48_o0_0_6_0_S14x14x1x48) shapeCasts_S14x14x1x48_S14x14x48
  have s7 : FVec F S14x14x48 .bf16 := shapeCast S14x14x48 (extractStridedSlice S14x14x1x48 ![0, 0, 7, 0] X slices_S14x14x16x48_o0_0_7_0_S14x14x1x48) shapeCasts_S14x14x1x48_S14x14x48
  have s8 : FVec F S14x14x48 .bf16 := shapeCast S14x14x48 (extractStridedSlice S14x14x1x48 ![0, 0, 8, 0] X slices_S14x14x16x48_o0_0_8_0_S14x14x1x48) shapeCasts_S14x14x1x48_S14x14x48
  have s9 : FVec F S14x14x48 .bf16 := shapeCast S14x14x48 (extractStridedSlice S14x14x1x48 ![0, 0, 9, 0] X slices_S14x14x16x48_o0_0_9_0_S14x14x1x48) shapeCasts_S14x14x1x48_S14x14x48
  have s10 : FVec F S14x14x48 .bf16 := shapeCast S14x14x48 (extractStridedSlice S14x14x1x48 ![0, 0, 10, 0] X slices_S14x14x16x48_o0_0_10_0_S14x14x1x48) shapeCasts_S14x14x1x48_S14x14x48
  have s11 : FVec F S14x14x48 .bf16 := shapeCast S14x14x48 (extractStridedSlice S14x14x1x48 ![0, 0, 11, 0] X slices_S14x14x16x48_o0_0_11_0_S14x14x1x48) shapeCasts_S14x14x1x48_S14x14x48
  have s12 : FVec F S14x14x48 .bf16 := shapeCast S14x14x48 (extractStridedSlice S14x14x1x48 ![0, 0, 12, 0] X slices_S14x14x16x48_o0_0_12_0_S14x14x1x48) shapeCasts_S14x14x1x48_S14x14x48
  have s13 : FVec F S14x14x48 .bf16 := shapeCast S14x14x48 (extractStridedSlice S14x14x1x48 ![0, 0, 13, 0] X slices_S14x14x16x48_o0_0_13_0_S14x14x1x48) shapeCasts_S14x14x1x48_S14x14x48
  have s14 : FVec F S14x14x48 .bf16 := shapeCast S14x14x48 (extractStridedSlice S14x14x1x48 ![0, 0, 14, 0] X slices_S14x14x16x48_o0_0_14_0_S14x14x1x48) shapeCasts_S14x14x1x48_S14x14x48
  have s15 : FVec F S14x14x48 .bf16 := shapeCast S14x14x48 (extractStridedSlice S14x14x1x48 ![0, 0, 15, 0] X slices_S14x14x16x48_o0_0_15_0_S14x14x1x48) shapeCasts_S14x14x1x48_S14x14x48
  have a0 : FVec F S14x14x96 .bf16 := concatenate S14x14x96 2 [⟨S14x14x48, s0⟩, ⟨S14x14x48, s1⟩] concatenates_S14x14x48_S14x14x48_S14x14x96_d2
  have a1 : FVec F S14x14x96 .bf16 := concatenate S14x14x96 2 [⟨S14x14x48, s2⟩, ⟨S14x14x48, s3⟩] concatenates_S14x14x48_S14x14x48_S14x14x96_d2
  have a2 : FVec F S14x14x96 .bf16 := concatenate S14x14x96 2 [⟨S14x14x48, s4⟩, ⟨S14x14x48, s5⟩] concatenates_S14x14x48_S14x14x48_S14x14x96_d2
  have a3 : FVec F S14x14x96 .bf16 := concatenate S14x14x96 2 [⟨S14x14x48, s6⟩, ⟨S14x14x48, s7⟩] concatenates_S14x14x48_S14x14x48_S14x14x96_d2
  have a4 : FVec F S14x14x96 .bf16 := concatenate S14x14x96 2 [⟨S14x14x48, s8⟩, ⟨S14x14x48, s9⟩] concatenates_S14x14x48_S14x14x48_S14x14x96_d2
  have a5 : FVec F S14x14x96 .bf16 := concatenate S14x14x96 2 [⟨S14x14x48, s10⟩, ⟨S14x14x48, s11⟩] concatenates_S14x14x48_S14x14x48_S14x14x96_d2
  have a6 : FVec F S14x14x96 .bf16 := concatenate S14x14x96 2 [⟨S14x14x48, s12⟩, ⟨S14x14x48, s13⟩] concatenates_S14x14x48_S14x14x48_S14x14x96_d2
  have a7 : FVec F S14x14x96 .bf16 := concatenate S14x14x96 2 [⟨S14x14x48, s14⟩, ⟨S14x14x48, s15⟩] concatenates_S14x14x48_S14x14x48_S14x14x96_d2
  have b0 : FVec F S14x14x192 .bf16 := concatenate S14x14x192 2 [⟨S14x14x96, a0⟩, ⟨S14x14x96, a1⟩] concatenates_S14x14x96_S14x14x96_S14x14x192_d2
  have b1 : FVec F S14x14x192 .bf16 := concatenate S14x14x192 2 [⟨S14x14x96, a2⟩, ⟨S14x14x96, a3⟩] concatenates_S14x14x96_S14x14x96_S14x14x192_d2
  have b2 : FVec F S14x14x192 .bf16 := concatenate S14x14x192 2 [⟨S14x14x96, a4⟩, ⟨S14x14x96, a5⟩] concatenates_S14x14x96_S14x14x96_S14x14x192_d2
  have b3 : FVec F S14x14x192 .bf16 := concatenate S14x14x192 2 [⟨S14x14x96, a6⟩, ⟨S14x14x96, a7⟩] concatenates_S14x14x96_S14x14x96_S14x14x192_d2
  have c0 : FVec F S14x14x384 .bf16 := concatenate S14x14x384 2 [⟨S14x14x192, b0⟩, ⟨S14x14x192, b1⟩] concatenates_S14x14x192_S14x14x192_S14x14x384_d2
  have c1 : FVec F S14x14x384 .bf16 := concatenate S14x14x384 2 [⟨S14x14x192, b2⟩, ⟨S14x14x192, b3⟩] concatenates_S14x14x192_S14x14x192_S14x14x384_d2
  concatenate S14x14x768 2 [⟨S14x14x384, c0⟩, ⟨S14x14x384, c1⟩] concatenates_S14x14x384_S14x14x384_S14x14x768_d2

end Lanes

/-- Column k of the lanes is lane k mod 48 of slice k / 48. -/
theorem lanes_apply {F : FTy → Type} [FloatOps F] (X : FVec F S14x14x16x48 .bf16) (p q : Fin 14) (k : Fin 768) :
    lanes X (ix3 p q k)
      = X (ix4 p q (⟨k.val / 48, by have := k.isLt; omega⟩ : Fin 16) (⟨k.val % 48, Nat.mod_lt _ (by norm_num)⟩ : Fin 48)) := by
  have key : lanes X (ix3 p q k)
      = X (ix4 p q (⟨0 + k.val / 48, by have := k.isLt; omega⟩ : Fin 16) (⟨k.val % 48, Nat.mod_lt _ (by norm_num)⟩ : Fin 48)) := by
    unfold lanes
    refine join_lanes (n₁ := 384) (n₂ := 384) (n := 768) X _ _ _ 0 8 rfl rfl (by norm_num) (fun p q k => ?_) (fun p q k => ?_) p q k
    ·
      refine join_lanes (n₁ := 192) (n₂ := 192) (n := 384) X _ _ _ 0 4 rfl rfl (by norm_num) (fun p q k => ?_) (fun p q k => ?_) p q k
      ·
        refine join_lanes (n₁ := 96) (n₂ := 96) (n := 192) X _ _ _ 0 2 rfl rfl (by norm_num) (fun p q k => ?_) (fun p q k => ?_) p q k
        ·
          refine join_lanes (n₁ := 48) (n₂ := 48) (n := 96) X _ _ _ 0 1 rfl rfl (by norm_num) (fun p q k => ?_) (fun p q k => ?_) p q k
          ·
            exact lane_leaf X 0 (by norm_num) _ _ p q k
          ·
            exact lane_leaf X 1 (by norm_num) _ _ p q k
        ·
          refine join_lanes (n₁ := 48) (n₂ := 48) (n := 96) X _ _ _ 2 1 rfl rfl (by norm_num) (fun p q k => ?_) (fun p q k => ?_) p q k
          ·
            exact lane_leaf X 2 (by norm_num) _ _ p q k
          ·
            exact lane_leaf X 3 (by norm_num) _ _ p q k
      ·
        refine join_lanes (n₁ := 96) (n₂ := 96) (n := 192) X _ _ _ 4 2 rfl rfl (by norm_num) (fun p q k => ?_) (fun p q k => ?_) p q k
        ·
          refine join_lanes (n₁ := 48) (n₂ := 48) (n := 96) X _ _ _ 4 1 rfl rfl (by norm_num) (fun p q k => ?_) (fun p q k => ?_) p q k
          ·
            exact lane_leaf X 4 (by norm_num) _ _ p q k
          ·
            exact lane_leaf X 5 (by norm_num) _ _ p q k
        ·
          refine join_lanes (n₁ := 48) (n₂ := 48) (n := 96) X _ _ _ 6 1 rfl rfl (by norm_num) (fun p q k => ?_) (fun p q k => ?_) p q k
          ·
            exact lane_leaf X 6 (by norm_num) _ _ p q k
          ·
            exact lane_leaf X 7 (by norm_num) _ _ p q k
    ·
      refine join_lanes (n₁ := 192) (n₂ := 192) (n := 384) X _ _ _ 8 4 rfl rfl (by norm_num) (fun p q k => ?_) (fun p q k => ?_) p q k
      ·
        refine join_lanes (n₁ := 96) (n₂ := 96) (n := 192) X _ _ _ 8 2 rfl rfl (by norm_num) (fun p q k => ?_) (fun p q k => ?_) p q k
        ·
          refine join_lanes (n₁ := 48) (n₂ := 48) (n := 96) X _ _ _ 8 1 rfl rfl (by norm_num) (fun p q k => ?_) (fun p q k => ?_) p q k
          ·
            exact lane_leaf X 8 (by norm_num) _ _ p q k
          ·
            exact lane_leaf X 9 (by norm_num) _ _ p q k
        ·
          refine join_lanes (n₁ := 48) (n₂ := 48) (n := 96) X _ _ _ 10 1 rfl rfl (by norm_num) (fun p q k => ?_) (fun p q k => ?_) p q k
          ·
            exact lane_leaf X 10 (by norm_num) _ _ p q k
          ·
            exact lane_leaf X 11 (by norm_num) _ _ p q k
      ·
        refine join_lanes (n₁ := 96) (n₂ := 96) (n := 192) X _ _ _ 12 2 rfl rfl (by norm_num) (fun p q k => ?_) (fun p q k => ?_) p q k
        ·
          refine join_lanes (n₁ := 48) (n₂ := 48) (n := 96) X _ _ _ 12 1 rfl rfl (by norm_num) (fun p q k => ?_) (fun p q k => ?_) p q k
          ·
            exact lane_leaf X 12 (by norm_num) _ _ p q k
          ·
            exact lane_leaf X 13 (by norm_num) _ _ p q k
        ·
          refine join_lanes (n₁ := 48) (n₂ := 48) (n := 96) X _ _ _ 14 1 rfl rfl (by norm_num) (fun p q k => ?_) (fun p q k => ?_) p q k
          ·
            exact lane_leaf X 14 (by norm_num) _ _ p q k
          ·
            exact lane_leaf X 15 (by norm_num) _ _ p q k
  rw [key]
  refine congrArg X (funext fun d => ?_)
  match d with
  | ⟨0, _⟩ => rfl
  | ⟨1, _⟩ => rfl
  | ⟨2, _⟩ => exact Fin.ext (Nat.zero_add _)
  | ⟨3, _⟩ => rfl

end Cert.KernelIdeal.Layout

end
-- ==== Proof.KernelRegroup.lean ====
/-
  The kernel's two regroupings, read at an index on the extended reals (the cast to the narrower float format is the
  identity there).

  One image x[c, y, z] (3 × 224 × 224) becomes, by shape casts and two transposes, R[h, w, p2, 16·c + p1] =
  x[c, 16·h + p1, 16·w + p2] (14 × 14 × 16 × 48).  The weight w[768, 384] is regrouped the same way: row 48·p2 + 16·c + p1
  of the result is row (16·p1 + p2)·3 + c of w — the re-ordering `Cert.PatchEmbed.colPerm`.
-/
import proofs.«135801_g2000606297638142_pallasbulk_1298_37_alg».proof.Proof.Gen.KernelIdeal.Skeleton
import proofs.«135801_g2000606297638142_pallasbulk_1298_37_alg».proof.Proof.PatchSpec
import Idealize.ShloMosaic.Lib.ValueIdx
import Idealize.ShloMosaic.Lib.ValueLayout
import Idealize.ShloMosaic.Lib.Pipeline.Value

noncomputable section

namespace Cert.KernelIdeal.Layout

open Cert.KernelIdeal Cert.KernelIdeal.Gen Idealize.ShloMosaic Idealize.ShloMosaic.ValueIdx

/-- The regrouped image: entry (h, w, p2, 16·c + p1) is the pixel (c, 16·h + p1, 16·w + p2). -/
theorem regroup_apply (v3 : Vec Ideal S1x3x224x224 .f32) (h w : Fin 14) (j : Fin 16) (q : Fin 48) :
    k0_pay3 v3 (ix4 h w j q)
      = v3 (ix4 (0 : Fin 1) (⟨q.val / 16, by have := q.isLt; omega⟩ : Fin 3)
          (⟨h.val * 16 + q.val % 16, by have := h.isLt; omega⟩ : Fin 224)
          (⟨w.val * 16 + j.val, by have := w.isLt; have := j.isLt; omega⟩ : Fin 224)) := by
  have hh := h.isLt; have hw := w.isLt; have hj := j.isLt; have hq := q.isLt
  unfold k0_pay3
  refine (shapeCast_apply _ shapeCasts_S14x224x48_S14x14x16x48 (ix4 h w j q)
    (ix3 h (⟨w.val * 16 + j.val, by omega⟩ : Fin 224) q) (by
      rw [Shape.rowMajor_val_three, Shape.rowMajor_val_four]
      show (h.val * 224 + (w.val * 16 + j.val)) * 48 + q.val = ((h.val * 14 + w.val) * 16 + j.val) * 48 + q.val
      omega)).trans ?_
  refine (transpose_apply [0, 2, 1] _ transposes_S14x48x224_p0_2_1_S14x224x48
    (ix3 h (⟨w.val * 16 + j.val, by omega⟩ : Fin 224) q) (ix3 h q (⟨w.val * 16 + j.val, by omega⟩ : Fin 224)) (fun b => by
      match b with
      | ⟨0, _⟩ => rfl
      | ⟨1, _⟩ => rfl
      | ⟨2, _⟩ => rfl)).trans ?_
  refine (shapeCast_apply _ shapeCasts_S14x3x16x224_S14x48x224 (ix3 h q (⟨w.val * 16 + j.val, by omega⟩ : Fin 224))
    (ix4 h (⟨q.val / 16, by omega⟩ : Fin 3) (⟨q.val % 16, Nat.mod_lt _ (by norm_num)⟩ : Fin 16) (⟨w.val * 16 + j.val, by omega⟩ : Fin 224)) (by
      rw [Shape.rowMajor_val_four, Shape.rowMajor_val_three]
      show ((h.val * 3 + q.val / 16) * 16 + q.val % 16) * 224 + (w.val * 16 + j.val) = (h.val * 48 + q.val) * 224 + (w.val * 16 + j.val)
      omega)).trans ?_
  refine (transpose_apply [1, 0, 2, 3] _ transposes_S3x14x16x224_p1_0_2_3_S14x3x16x224
    (ix4 h (⟨q.val / 16, by omega⟩ : Fin 3) (⟨q.val % 16, Nat.mod_lt _ (by norm_num)⟩ : Fin 16) (⟨w.val * 16 + j.val, by omega⟩ : Fin 224))
    (ix4 (⟨q.val / 16, by omega⟩ : Fin 3) h (⟨q.val % 16, Nat.mod_lt _ (by norm_num)⟩ : Fin 16) (⟨w.val * 16 + j.val, by omega⟩ : Fin 224)) (fun b => by
      match b with
      | ⟨0, _⟩ => rfl
      | ⟨1, _⟩ => rfl
      | ⟨2, _⟩ => rfl
      | ⟨3, _⟩ => rfl)).trans ?_
  refine (shapeCast_apply _ shapeCasts_S3x224x224_S3x14x16x224
    (ix4 (⟨q.val / 16, by omega⟩ : Fin 3) h (⟨q.val % 16, Nat.mod_lt _ (by norm_num)⟩ : Fin 16) (⟨w.val * 16 + j.val, by omega⟩ : Fin 224))
    (ix3 (⟨q.val / 16, by omega⟩ : Fin 3) (⟨h.val * 16 + q.val % 16, by omega⟩ : Fin 224) (⟨w.val * 16 + j.val, by omega⟩ : Fin 224)) (by
      rw [Shape.rowMajor_val_three, Shape.rowMajor_val_four]
      show (q.val / 16 * 224 + (h.val * 16 + q.val % 16)) * 224 + (w.val * 16 + j.val)
        = ((q.val / 16 * 14 + h.val) * 16 + q.val % 16) * 224 + (w.val * 16 + j.val)
      omega)).trans ?_
  refine (truncf_apply (ψ := .bf16) _ bitsLt_bf16_f32 _).trans ?_
  exact shapeCast_1abc_abc_apply v3 shapeCasts_S1x3x224x224_S3x224x224 _ _ _

/-- The regrouped weight: row 48·p2 + 16·c + p1 is row (16·p1 + p2)·3 + c of the weight. -/
theorem wperm_apply (W : Vec Ideal S768x384 .f32) (k : Fin 768) (e : Fin 384) :
    k0_pay2 W (ix2 k e) = W (ix2 (Cert.PatchEmbed.colPerm k) e) := by
  obtain ⟨kv, hk⟩ := k
  obtain ⟨p2, c, p1, hp2, hc, hp1, rfl⟩ := Cert.PatchEmbed.digits_kernel kv hk
  have he := e.isLt
  have a1 : (48 * p2 + 16 * c + p1) % 16 = p1 := by omega
  have a2 : (48 * p2 + 16 * c + p1) / 48 = p2 := by omega
  have a3 : (48 * p2 + 16 * c + p1) % 48 / 16 = c := by omega
  have hperm := Cert.PatchEmbed.permNat_digits p2 c p1 hp2 hc hp1
  unfold k0_pay2
  refine (congrFun (shapeCast_self _ _) _).trans ?_
  refine (truncf_apply (ψ := .bf16) _ bitsLt_bf16_f32 _).trans ?_
  refine (shapeCast_apply _ shapeCasts_S16x3x16x384_S768x384 (ix2 (⟨48 * p2 + 16 * c + p1, hk⟩ : Fin 768) e)
    (ix4 (⟨p2, hp2⟩ : Fin 16) (⟨c, hc⟩ : Fin 3) (⟨p1, hp1⟩ : Fin 16) e) (by
      rw [Shape.rowMajor_val_four, Shape.rowMajor_val_two]
      show ((p2 * 3 + c) * 16 + p1) * 384 + e.val = (48 * p2 + 16 * c + p1) * 384 + e.val
      omega)).trans ?_
  refine (transpose_apply [1, 2, 0, 3] _ transposes_S16x16x3x384_p1_2_0_3_S16x3x16x384
    (ix4 (⟨p2, hp2⟩ : Fin 16) (⟨c, hc⟩ : Fin 3) (⟨p1, hp1⟩ : Fin 16) e)
    (ix4 (⟨p1, hp1⟩ : Fin 16) (⟨p2, hp2⟩ : Fin 16) (⟨c, hc⟩ : Fin 3) e) (fun b => by
      match b with
      | ⟨0, _⟩ => rfl
      | ⟨1, _⟩ => rfl
      | ⟨2, _⟩ => rfl
      | ⟨3, _⟩ => rfl)).trans ?_
  refine (shapeCast_apply _ shapeCasts_S768x384_S16x16x3x384
    (ix4 (⟨p1, hp1⟩ : Fin 16) (⟨p2, hp2⟩ : Fin 16) (⟨c, hc⟩ : Fin 3) e)
    (ix2 (Cert.PatchEmbed.colPerm (⟨48 * p2 + 16 * c + p1, hk⟩ : Fin 768)) e) (by
      rw [Shape.rowMajor_val_two, Shape.rowMajor_val_four]
      show Cert.PatchEmbed.permNat (48 * p2 + 16 * c + p1) * 384 + e.val = ((p1 * 16 + p2) * 3 + c) * 384 + e.val
      rw [hperm]; omega)).trans ?_
  rfl

end Cert.KernelIdeal.Layout

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«135801_g2000606297638142_pallasbulk_1298_37_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.KernelImage.lean ====
/-
  One image through the kernel: its pixels regrouped, the sixteen slices laid side by side (a 196 × 768 array of patch rows
  in the order (p2, c, p1)), multiplied on the matrix unit by the regrouped weight into a zero accumulator, the bias row
  added to every row, a leading unit axis put in front.  At an index (0, n, e) it is

      Σ_k x[(k mod 48) / 16, 16·(n / 14) + k mod 16, 16·(n mod 14) + k / 48] · ws(k, e) + β(0, e),

  on the extended reals; the casts to the narrower float format are the identity there.
-/
import proofs.«135801_g2000606297638142_pallasbulk_1298_37_alg».proof.Proof.KernelLayout
import proofs.«135801_g2000606297638142_pallasbulk_1298_37_alg».proof.Proof.KernelRegroup
import proofs.«135801_g2000606297638142_pallasbulk_1298_37_alg».proof.Proof.LibDense
import proofs.«135801_g2000606297638142_pallasbulk_1298_37_alg».proof.Proof.LibRowBlocks
import proofs.«135801_g2000606297638142_pallasbulk_1298_37_alg».proof.Proof.LibBiasRow
import Idealize.ShloMosaic.PureOps.Ideal.Laws

noncomputable section

open scoped BigOperators

namespace Cert.KernelIdeal.Image

open Cert.KernelIdeal Cert.KernelIdeal.Gen Cert.KernelIdeal.Layout Idealize.ShloMosaic Idealize.ShloMosaic.ValueIdx

section
variable {F : FTy → Type} [FloatOps F]

/-- The patch rows times the regrouped weight on the matrix unit into a zero accumulator, plus the bias row, a unit axis
    in front: the body's operations from the lanes to the stored value. -/
def project (L : FVec F S14x14x768 .bf16) (ws : Vec F S768x384 .bf16) (β : Vec F S1x384 .f32) : FVec F S1x196x384 .f32 :=
  have rows : FVec F S196x768 .bf16 := shapeCast S196x768 L shapeCasts_S14x14x768_S196x768
  have zero : FVec F S196x384 .f32 := constant S196x384 .f32 0x00000000#32
  have prod : FVec F S196x384 .f32 := matmul dot_S196x768_S768x384_S196x384_1_0_0_1_n_n none rows ws zero
  have β1 : FVec F S1x384 .f32 := shapeCast S1x384 β shapeCasts_S1x384_S1x384
  have βs : FVec F S196x384 .f32 := broadcastTo S196x384 β1 broadcasts_S1x384_S196x384
  have sum : FVec F S196x384 .f32 := addf prod βs
  shapeCast S1x196x384 sum shapeCasts_S196x384_S1x196x384

/-- One image's block of the result, from its pixels, the regrouped weight and the bias row. -/
def imgOut (v3 : Vec F S1x3x224x224 .f32) (ws : Vec F S768x384 .bf16) (β : Vec F S1x384 .f32) : FVec F S1x196x384 .f32 :=
  project (lanes (k0_pay3 v3)) ws β

end

/-- Entry (n, k) of the patch rows: the pixel of channel (k mod 48) / 16 at row 16·(n / 14) + k mod 16, column
    16·(n mod 14) + k / 48. -/
theorem rows_apply (v3 : Vec Ideal S1x3x224x224 .f32) (n : Fin 196) (k : Fin 768) :
    shapeCast S196x768 (lanes (k0_pay3 v3)) shapeCasts_S14x14x768_S196x768 (ix2 n k)
      = v3 (ix4 (0 : Fin 1) (⟨k.val % 48 / 16, by have := k.isLt; omega⟩ : Fin 3)
          (⟨n.val / 14 * 16 + k.val % 16, by have := n.isLt; omega⟩ : Fin 224)
          (⟨n.val % 14 * 16 + k.val / 48, by have := n.isLt; have := k.isLt; omega⟩ : Fin 224)) := by
  have hn := n.isLt; have hk := k.isLt
  refine (Cert.RowBlocks.shapeCast_merge_apply _ shapeCasts_S14x14x768_S196x768
    (⟨n.val / 14, by omega⟩ : Fin 14) (⟨n.val % 14, Nat.mod_lt _ (by norm_num)⟩ : Fin 14) k n (by
      show n.val = n.val / 14 * 14 + n.val % 14
      omega)).trans ?_
  refine (lanes_apply _ _ _ k).trans ?_
  refine (regroup_apply v3 _ _ _ _).trans ?_
  refine congrArg v3 (funext fun d => ?_)
  match d with
  | ⟨0, _⟩ => rfl
  | ⟨1, _⟩ => rfl
  | ⟨2, _⟩ =>
    apply Fin.ext
    show n.val / 14 * 16 + k.val % 48 % 16 = n.val / 14 * 16 + k.val % 16
    omega
  | ⟨3, _⟩ => rfl

/-- One image's block of the result at an index. -/
theorem imgOut_apply (v3 : Vec Ideal S1x3x224x224 .f32) (ws : Vec Ideal S768x384 .bf16) (β : Vec Ideal S1x384 .f32)
    (u : Fin 1) (n : Fin 196) (e : Fin 384) :
    imgOut v3 ws β (ix3 u n e)
      = (∑ k : Fin 768, v3 (ix4 (0 : Fin 1) (⟨k.val % 48 / 16, by have := k.isLt; omega⟩ : Fin 3)
            (⟨n.val / 14 * 16 + k.val % 16, by have := n.isLt; omega⟩ : Fin 224)
            (⟨n.val % 14 * 16 + k.val / 48, by have := n.isLt; have := k.isLt; omega⟩ : Fin 224)) * ws (ix2 k e))
        + β (ix2 (0 : Fin 1) e) := by
  unfold imgOut project
  refine (shapeCast_ab_1ab_apply _ shapeCasts_S196x384_S1x196x384 u n e).trans ?_
  refine (congrFun (Cert.BiasRow.vecAddRow _ _ broadcasts_S1x384_S196x384) (ix2 n e)).trans ?_
  refine (Cert.BiasRow.addRow_apply _ _ n e).trans ?_
  refine congrArg₂ (· + ·) ?_ ?_
  · refine (congrFun (Cert.Dense.matmul_zero_eq_mm dot_S196x768_S768x384_S196x384_1_0_0_1_n_n rfl rfl rfl rfl rfl rfl none _ _) (ix2 n e)).trans ?_
    refine (Cert.Dense.mm_apply _ _ n e).trans ?_
    exact Finset.sum_congr rfl (fun k _ => congrArg (· * ws (ix2 k e)) (rows_apply v3 n k))
  · exact congrFun (shapeCast_self _ _) _

end Cert.KernelIdeal.Image

end
-- ==== Proof.KernelPieces.lean ====
/-
  What one grid point leaves in the output block and in the carried scratch.

  A grid point handles eight images.  Its eight stores write, for image i, the 196 × 384 block `imgOut` of the image's
  pixels (rows i of the point's 8 × 3 × 224 × 224 input block), the regrouped weight held in the scratch, and the bias row,
  at offset i along the first axis of the 8 × 196 × 384 output block: the list `pieces`.  At the first grid point the
  scratch is first filled with the regrouped weight `k0_pay2 w` and then read back; at the later points it is read as the
  point before left it.  So the block is, at (i, n, e),

      Σ_k x[i, (k mod 48) / 16, 16·(n / 14) + k mod 16, 16·(n mod 14) + k / 48] · ws(k, e) + β(0, e)

  (`blockVal`), with ws the scratch's contents.
-/
import proofs.«135801_g2000606297638142_pallasbulk_1298_37_alg».proof.Proof.Gen.KernelIdeal.Frame
import proofs.«135801_g2000606297638142_pallasbulk_1298_37_alg».proof.Proof.KernelImage
import Idealize.ShloMosaic.Lib.Pipeline.Value

set_option maxRecDepth 16384

noncomputable section

open scoped BigOperators

namespace Cert.KernelIdeal.Pieces

open Cert.KernelIdeal Cert.KernelIdeal.Gen Cert.KernelIdeal.Image Idealize.ShloMosaic Idealize.ShloMosaic.ValueIdx
open Idealize.ShloMosaic.TcCoe Idealize.ShloMosaic.Tactic Idealize.SL.Sem

section
variable {F : FTy → Type} [FloatOps F]

/-- The eight stores of one grid point, last first: image i's block at offset i. -/
def pieces (x0 : Vec F S8x3x224x224 .f32) (ws : Vec F S768x384 .bf16) (β : Vec F S1x384 .f32) :
    List (View.Piece (Elt F) S8x196x384 .f32) :=
  [
    ⟨Rect.unit (s := S8x196x384) ![7, 0, 0] S1x196x384.size inb_S8x196x384_S1x196x384_7_0_0,
      imgOut (View.ld x0 (Rect.unit (s := S8x3x224x224) ![7, 0, 0, 0] S1x3x224x224.size inb_S8x3x224x224_S1x3x224x224_7_0_0_0)) ws β⟩,
    ⟨Rect.unit (s := S8x196x384) ![6, 0, 0] S1x196x384.size inb_S8x196x384_S1x196x384_6_0_0,
      imgOut (View.ld x0 (Rect.unit (s := S8x3x224x224) ![6, 0, 0, 0] S1x3x224x224.size inb_S8x3x224x224_S1x3x224x224_6_0_0_0)) ws β⟩,
    ⟨Rect.unit (s := S8x196x384) ![5, 0, 0] S1x196x384.size inb_S8x196x384_S1x196x384_5_0_0,
      imgOut (View.ld x0 (Rect.unit (s := S8x3x224x224) ![5, 0, 0, 0] S1x3x224x224.size inb_S8x3x224x224_S1x3x224x224_5_0_0_0)) ws β⟩,
    ⟨Rect.unit (s := S8x196x384) ![4, 0, 0] S1x196x384.size inb_S8x196x384_S1x196x384_4_0_0,
      imgOut (View.ld x0 (Rect.unit (s := S8x3x224x224) ![4, 0, 0, 0] S1x3x224x224.size inb_S8x3x224x224_S1x3x224x224_4_0_0_0)) ws β⟩,
    ⟨Rect.unit (s := S8x196x384) ![3, 0, 0] S1x196x384.size inb_S8x196x384_S1x196x384_3_0_0,
      imgOut (View.ld x0 (Rect.unit (s := S8x3x224x224) ![3, 0, 0, 0] S1x3x224x224.size inb_S8x3x224x224_S1x3x224x224_3_0_0_0)) ws β⟩,
    ⟨Rect.unit (s := S8x196x384) ![2, 0, 0] S1x196x384.size inb_S8x196x384_S1x196x384_2_0_0,
      imgOut (View.ld x0 (Rect.unit (s := S8x3x224x224) ![2, 0, 0, 0] S1x3x224x224.size inb_S8x3x224x224_S1x3x224x224_2_0_0_0)) ws β⟩,
    ⟨Rect.unit (s := S8x196x384) ![1, 0, 0] S1x196x384.size inb_S8x196x384_S1x196x384_1_0_0,
      imgOut (View.ld x0 (Rect.unit (s := S8x3x224x224) ![1, 0, 0, 0] S1x3x224x224.size inb_S8x3x224x224_S1x3x224x224_1_0_0_0)) ws β⟩,
    ⟨Rect.unit (s := S8x196x384) ![0, 0, 0] S1x196x384.size inb_S8x196x384_S1x196x384_0_0_0,
      imgOut (View.ld x0 (Rect.unit (s := S8x3x224x224) ![0, 0, 0, 0] S1x3x224x224.size inb_S8x3x224x224_S1x3x224x224_0_0_0_0)) ws β⟩
  ]

theorem zeros2 : (![0, 0] : Fin 2 → ℕ) = fun _ => 0 := by
  funext a; match a with
  | ⟨0, _⟩ => rfl
  | ⟨1, _⟩ => rfl

/-- At the first grid point the stores into the output block are `pieces` over the regrouped weight, which the scratch
    holds by then. -/
theorem run_A_pieces (c : Dev nD) (i : grid0.Coords) (arg1 : Memref sig .tc .vmem S8x3x224x224 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S8x196x384 .f32) (harg4 : arg4.IsWhole) (arg5 : Memref sig .tc .vmem S768x384 .bf16) (harg5 : arg5.IsWhole) (hc0 : cond0_0 i)
    (x0 : Vec F S8x3x224x224 .f32) (x1 : Vec F S768x384 .f32) (x2 : Vec F S1x384 .f32) :
    (kernelRun0_A c i arg1 harg1 arg2 harg2 arg3 harg3 arg4 harg4 arg5 harg5 hc0 x0 x1 x2).1 = pieces x0 (k0_pay2 x1) x2 := by
  unfold kernelRun0_A
  dsimp only
  sl_unfold_words
  simp only [View.readAt_eq_ld, Memref.IsWhole.read_unread, View.readCov_unit_zero (S := S768x384) arg5.view zeros2,
    View.ld_unit_zero (S := S768x384) zeros2, View.ld_unit_zero (S := S1x384) zeros2]
  rfl

/-- At the first grid point the scratch is left holding the regrouped weight. -/
theorem run_A_scratch (c : Dev nD) (i : grid0.Coords) (arg1 : Memref sig .tc .vmem S8x3x224x224 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S8x196x384 .f32) (harg4 : arg4.IsWhole) (arg5 : Memref sig .tc .vmem S768x384 .bf16) (harg5 : arg5.IsWhole) (hc0 : cond0_0 i)
    (x0 : Vec F S8x3x224x224 .f32) (x1 : Vec F S768x384 .f32) (x2 : Vec F S1x384 .f32) :
    sout0_A_0 c i arg1 harg1 arg2 harg2 arg3 harg3 arg4 harg4 arg5 harg5 hc0 x0 x1 x2 = k0_pay2 x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero (S := S768x384) zeros2]
  simp only [View.readAt_eq_ld, Memref.IsWhole.read_unread, View.ld_unit_zero (S := S768x384) zeros2]

/-- At a later grid point the stores into the output block are `pieces` over what the scratch held. -/
theorem run_B_pieces (c : Dev nD) (i : grid0.Coords) (arg1 : Memref sig .tc .vmem S8x3x224x224 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S8x196x384 .f32) (harg4 : arg4.IsWhole) (arg5 : Memref sig .tc .vmem S768x384 .bf16) (harg5 : arg5.IsWhole) (hc0 : ¬cond0_0 i)
    (x0 : Vec F S8x3x224x224 .f32) (x1 : Vec F S768x384 .f32) (x2 : Vec F S1x384 .f32) (xs0 : Vec F S768x384 .bf16) :
    (kernelRun0_B c i arg1 harg1 arg2 harg2 arg3 harg3 arg4 harg4 arg5 harg5 hc0 x0 x1 x2 xs0).1 = pieces x0 xs0 x2 := by
  unfold kernelRun0_B
  dsimp only
  sl_unfold_words
  simp only [View.readAt_eq_ld, Memref.IsWhole.read_unread, View.ld_unit_zero (S := S768x384) zeros2, View.ld_unit_zero (S := S1x384) zeros2]
  rfl

end

end Cert.KernelIdeal.Pieces

end
-- ==== Proof.KernelBlock.lean ====
/-
  The output block of one grid point, at an index.

  Every one of the point's eight stores writes the restriction of ONE function of the block index,

      blockVal x ws β (i, n, e) = Σ_k x[i, (k mod 48) / 16, 16·(n / 14) + k mod 16, 16·(n mod 14) + k / 48] · ws(k, e) + β(0, e),

  to its own 1 × 196 × 384 slab (image i at offset i), and the slabs cover the block; so the block is that function.
-/
import proofs.«135801_g2000606297638142_pallasbulk_1298_37_alg».proof.Proof.KernelPieces

set_option maxRecDepth 16384

noncomputable section

open scoped BigOperators

namespace Cert.KernelIdeal.Pieces

open Cert.KernelIdeal Cert.KernelIdeal.Gen Cert.KernelIdeal.Image Idealize.ShloMosaic Idealize.ShloMosaic.ValueIdx
open Idealize.ShloMosaic.TcCoe Idealize.ShloMosaic.Tactic Idealize.SL.Sem

/-- The output block of one grid point as a function of its index: image i's patch n (its 768 entries in the order
    (p2, c, p1)) times column e of the scratch's contents, plus the bias. -/
def blockVal (x0 : Vec Ideal S8x3x224x224 .f32) (ws : Vec Ideal S768x384 .bf16) (β : Vec Ideal S1x384 .f32) :
    S8x196x384.Idx → EReal := fun y =>
  (∑ k : Fin 768, x0 (ix4 (⟨(y 0).val, (y 0).isLt⟩ : Fin 8) (⟨k.val % 48 / 16, by have := k.isLt; omega⟩ : Fin 3)
        (⟨(y 1).val / 14 * 16 + k.val % 16, by have h1 : (y 1).val < 196 := (y 1).isLt; omega⟩ : Fin 224)
        (⟨(y 1).val % 14 * 16 + k.val / 48, by have h1 : (y 1).val < 196 := (y 1).isLt; have := k.isLt; omega⟩ : Fin 224))
      * ws (ix2 k (⟨(y 2).val, (y 2).isLt⟩ : Fin 384)))
    + β (ix2 (0 : Fin 1) (⟨(y 2).val, (y 2).isLt⟩ : Fin 384))

/-- Image i's store writes the restriction of `blockVal` to its slab. -/
theorem piece_apply (i : ℕ) (hi : i < 8)
    (inb4 : ∀ a, (![i, 0, 0, 0] : Fin 4 → ℕ) a + S1x3x224x224.size a ≤ S8x3x224x224.size a)
    (inb3 : ∀ a, (![i, 0, 0] : Fin 3 → ℕ) a + S1x196x384.size a ≤ S8x196x384.size a)
    (x0 : Vec Ideal S8x3x224x224 .f32) (ws : Vec Ideal S768x384 .bf16) (β : Vec Ideal S1x384 .f32) (x : S1x196x384.Idx) :
    imgOut (View.ld x0 (Rect.unit (s := S8x3x224x224) ![i, 0, 0, 0] S1x3x224x224.size inb4)) ws β x
      = blockVal x0 ws β ((Rect.unit (s := S8x196x384) ![i, 0, 0] S1x196x384.size inb3).emb x) := by
  obtain ⟨u, n, e, rfl⟩ : ∃ (u : Fin 1) (n : Fin 196) (e : Fin 384), x = ix3 u n e := ⟨x 0, x 1, x 2, eq_ix3 x⟩
  have hu : u.val = 0 := by omega
  have hn := n.isLt
  rw [imgOut_apply]
  unfold blockVal
  refine congrArg₂ (· + ·) (Finset.sum_congr rfl fun k _ => congrArg₂ (· * ·) ?_ ?_) ?_
  · have hk := k.isLt
    refine congrArg x0 (funext fun d => ?_)
    match d with
    | ⟨0, _⟩ =>
      apply Fin.ext
      show i + 1 * 0 = i + 1 * u.val
      omega
    | ⟨1, _⟩ =>
      apply Fin.ext
      show 0 + 1 * (k.val % 48 / 16) = k.val % 48 / 16
      omega
    | ⟨2, _⟩ =>
      apply Fin.ext
      show 0 + 1 * (n.val / 14 * 16 + k.val % 16) = (0 + 1 * n.val) / 14 * 16 + k.val % 16
      omega
    | ⟨3, _⟩ =>
      apply Fin.ext
      show 0 + 1 * (n.val % 14 * 16 + k.val / 48) = (0 + 1 * n.val) % 14 * 16 + k.val / 48
      omega
  · refine congrArg ws (funext fun d => ?_)
    match d with
    | ⟨0, _⟩ => rfl
    | ⟨1, _⟩ =>
      apply Fin.ext
      show e.val = 0 + 1 * e.val
      omega
  · refine congrArg β (funext fun d => ?_)
    match d with
    | ⟨0, _⟩ => rfl
    | ⟨1, _⟩ =>
      apply Fin.ext
      show e.val = 0 + 1 * e.val
      omega

/-- The eight slabs cover the block. -/
theorem cover_pieces {F : FTy → Type} [FloatOps F] (x0 : Vec F S8x3x224x224 .f32) (ws : Vec F S768x384 .bf16) (β : Vec F S1x384 .f32)
    (y : S8x196x384.Idx) : ∃ p ∈ pieces x0 ws β, y ∈ p.1.set :=
  View.cover_of_tiledL (pieces x0 ws β) S1x196x384.size (by sl_kernel_rfl) y

/-- The block the eight stores leave is `blockVal`. -/
theorem canon_pieces_apply (x0 : Vec Ideal S8x3x224x224 .f32) (ws : Vec Ideal S768x384 .bf16) (β : Vec Ideal S1x384 .f32)
    (y : S8x196x384.Idx) : View.canon (pieces x0 ws β) y = blockVal x0 ws β y :=
  View.canon_apply_of_pieces (blockVal x0 ws β) (pieces x0 ws β) (by
    intro p hp x
    simp only [pieces, List.mem_cons, List.not_mem_nil, or_false] at hp
    rcases hp with rfl | rfl | rfl | rfl | rfl | rfl | rfl | rfl
    · exact piece_apply 7 (by norm_num) inb_S8x3x224x224_S1x3x224x224_7_0_0_0 inb_S8x196x384_S1x196x384_7_0_0 x0 ws β x
    · exact piece_apply 6 (by norm_num) inb_S8x3x224x224_S1x3x224x224_6_0_0_0 inb_S8x196x384_S1x196x384_6_0_0 x0 ws β x
    · exact piece_apply 5 (by norm_num) inb_S8x3x224x224_S1x3x224x224_5_0_0_0 inb_S8x196x384_S1x196x384_5_0_0 x0 ws β x
    · exact piece_apply 4 (by norm_num) inb_S8x3x224x224_S1x3x224x224_4_0_0_0 inb_S8x196x384_S1x196x384_4_0_0 x0 ws β x
    · exact piece_apply 3 (by norm_num) inb_S8x3x224x224_S1x3x224x224_3_0_0_0 inb_S8x196x384_S1x196x384_3_0_0 x0 ws β x
    · exact piece_apply 2 (by norm_num) inb_S8x3x224x224_S1x3x224x224_2_0_0_0 inb_S8x196x384_S1x196x384_2_0_0 x0 ws β x
    · exact piece_apply 1 (by norm_num) inb_S8x3x224x224_S1x3x224x224_1_0_0_0 inb_S8x196x384_S1x196x384_1_0_0 x0 ws β x
    · exact piece_apply 0 (by norm_num) inb_S8x3x224x224_S1x3x224x224_0_0_0_0 inb_S8x196x384_S1x196x384_0_0_0 x0 ws β x) y (cover_pieces x0 ws β y)

end Cert.KernelIdeal.Pieces

end
-- ==== Proof.KernelValue.lean ====
/-
  The kernel's result array is the patch embedding.

  Grid point t handles images 8·t, …, 8·t + 7: its input block is rows 8·t … 8·t + 7 of x, its output block rows
  8·t … 8·t + 7 of the result; the weight and the bias row are whole at every point.  The scratch holds the regrouped
  weight from the first point on (the later points do not store into it).  So what point t writes back is block t of
  `embed x w β` — the patch and the weight rows both in the order (p2, c, p1), which re-indexes the sum over the 768
  columns (`Cert.PatchEmbed.embed_apply_perm`) —, the eight blocks cover the result, and the result is `embed x w β`.
-/
import proofs.«135801_g2000606297638142_pallasbulk_1298_37_alg».proof.Proof.Gen.KernelIdeal.Value
import proofs.«135801_g2000606297638142_pallasbulk_1298_37_alg».proof.Proof.KernelBlock
import Idealize.ShloMosaic.Lib.StableHlo.Run
import Idealize.ShloMosaic.Lib.Pipeline.Value

set_option maxRecDepth 16384

noncomputable section

open scoped BigOperators

namespace Cert.KernelIdeal.KValue

open Cert.KernelIdeal Cert.KernelIdeal.Gen Cert.KernelIdeal.Value Cert.KernelIdeal.Image Cert.KernelIdeal.Layout
open Cert.KernelIdeal.Pieces Cert.PatchEmbed
open Idealize.ShloMosaic Idealize.ShloMosaic.ValueIdx Idealize.ShloMosaic.TcCoe Idealize.SL.Sem
open Idealize.ShloMosaic.Pipeline (Dat)

/-! ## One point's block, over variables -/

/-- At the first grid point the output block is `blockVal` over the regrouped weight. -/
theorem out_A_apply (c : Dev nD) (i : grid0.Coords) (arg1 : Memref sig .tc .vmem S8x3x224x224 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S8x196x384 .f32) (harg4 : arg4.IsWhole) (arg5 : Memref sig .tc .vmem S768x384 .bf16) (harg5 : arg5.IsWhole) (hc0 : cond0_0 i)
    (x0 : Vec Ideal S8x3x224x224 .f32) (x1 : Vec Ideal S768x384 .f32) (x2 : Vec Ideal S1x384 .f32) (y : S8x196x384.Idx) :
    out0_A_3 c i arg1 harg1 arg2 harg2 arg3 harg3 arg4 harg4 arg5 harg5 hc0 x0 x1 x2 y = blockVal x0 (k0_pay2 x1) x2 y := by
  unfold out0_A_3
  rw [View.read_writes_eq_canon _ _ _ (cover0_A_3 c i arg1 harg1 arg2 harg2 arg3 harg3 arg4 harg4 arg5 harg5 hc0 x0 x1 x2), run_A_pieces]
  exact canon_pieces_apply _ _ _ y

/-- At a later grid point it is `blockVal` over what the scratch held. -/
theorem out_B_apply (c : Dev nD) (i : grid0.Coords) (arg1 : Memref sig .tc .vmem S8x3x224x224 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S8x196x384 .f32) (harg4 : arg4.IsWhole) (arg5 : Memref sig .tc .vmem S768x384 .bf16) (harg5 : arg5.IsWhole) (hc0 : ¬cond0_0 i)
    (x0 : Vec Ideal S8x3x224x224 .f32) (x1 : Vec Ideal S768x384 .f32) (x2 : Vec Ideal S1x384 .f32) (xs0 : Vec Ideal S768x384 .bf16)
    (y : S8x196x384.Idx) :
    out0_B_3 c i arg1 harg1 arg2 harg2 arg3 harg3 arg4 harg4 arg5 harg5 hc0 x0 x1 x2 xs0 y = blockVal x0 xs0 x2 y := by
  unfold out0_B_3
  rw [View.read_writes_eq_canon _ _ _ (cover0_B_3 c i arg1 harg1 arg2 harg2 arg3 harg3 arg4 harg4 arg5 harg5 hc0 x0 x1 x2 xs0), run_B_pieces]
  exact canon_pieces_apply _ _ _ y

/-- A point's block over its three inputs: if the input block holds images 8·t … 8·t + 7 of x, the scratch the weight with
    its rows re-ordered, and the bias row the bias, the block is rows 8·t … 8·t + 7 of the embedding. -/
theorem point_eq (X : Img) (W : Wt) (B : Bias) (tv : ℕ) (ht : tv < 8)
    (x0 : Vec Ideal S8x3x224x224 .f32) (ws : Vec Ideal S768x384 .bf16) (x2 : Vec Ideal S1x384 .f32)
    (h0 : ∀ (i : Fin 8) (c : Fin 3) (y z : Fin 224),
      x0 (ix4 i c y z) = X (ix4 (⟨8 * tv + i.val, by have := i.isLt; omega⟩ : Fin 64) c y z))
    (hs : ∀ (k : Fin 768) (e : Fin 384), ws (ix2 k e) = W (ix2 (colPerm k) e))
    (h2 : ∀ e : Fin 384, x2 (ix2 (0 : Fin 1) e) = B (ix1 e))
    (i : Fin 8) (n : Fin 196) (e : Fin 384) :
    blockVal x0 ws x2 (ix3 i n e) = embed X W B (ix3 (⟨8 * tv + i.val, by have := i.isLt; omega⟩ : Fin 64) n e) := by
  rw [embed_apply_perm]
  unfold blockVal
  refine congrArg₂ (· + ·) (Finset.sum_congr rfl fun k _ => congrArg₂ (· * ·) ?_ (hs k e)) (h2 e)
  exact (h0 _ _ _ _).trans (pix_colPerm X _ n k).symm

/-! ## The arrays as the region finds them -/

variable (m : (ℓ : Loc nD τ sig) → Buf (Elt Ideal) ℓ) (ρ : Dev nD → PrngReg)

/-- The printed index maps, decided over the grid: the image block and the output block move with the point along
    their first axis; the weight and the bias row stay. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The bias row the region finds is the bias vector laid out as one row. -/
theorem V_bias (c : Dev nD) :
    (V m c main_v0 : S1x384.Idx → EReal) = shapeCast S1x384 (m ((c : Thread nD τ).loc main_arg2)) shapeCasts_S384_S1x384 := by
  dsimp only [Gen.V, Gen.hostOps0]
  after_results
  rfl

/-- The image block of point t is images 8·t … 8·t + 7. -/
theorem blk_img (c : Dev nD) (t : Fin cfg0.N) (i : Fin 8) (ch : Fin 3) (y z : Fin 224) :
    iblk m c 0 t (ix4 i ch y z)
      = (m ((c : Thread nD τ).loc main_arg0) : S64x3x224x224.Idx → EReal)
          (ix4 (⟨8 * t.val + i.val, by have := i.isLt; have : t.val < 8 := lt_of_lt_of_eq t.isLt (show cfg0.N = 8 from N_0); omega⟩ : Fin 64) ch y z) := by
  obtain ⟨e0, e1, e2, e3, -⟩ := idx_facts t
  unfold iblk
  show V m c main_arg0 (((cfg0.win 0).blk t).view.emb (ix4 i ch y z)) = _
  rw [V_main_arg0]
  refine congrArg _ (funext fun a => ?_)
  apply Fin.ext
  match a with
  | ⟨0, _⟩ => show win0_0.index t (0 : Fin 4) * 8 + 1 * i.val = 8 * t.val + i.val; omega
  | ⟨1, _⟩ => show win0_0.index t (1 : Fin 4) * 3 + 1 * ch.val = ch.val; omega
  | ⟨2, _⟩ => show win0_0.index t (2 : Fin 4) * 224 + 1 * y.val = y.val; omega
  | ⟨3, _⟩ => show win0_0.index t (3 : Fin 4) * 224 + 1 * z.val = z.val; omega

/-- The weight block of every point is the whole weight. -/
theorem blk_weight (c : Dev nD) (t : Fin cfg0.N) (k : Fin 768) (e : Fin 384) :
    iblk m c 1 t (ix2 k e) = (m ((c : Thread nD τ).loc main_arg1) : S768x384.Idx → EReal) (ix2 k e) := by
  obtain ⟨-, -, -, -, e4, e5, -⟩ := idx_facts t
  unfold iblk
  show V m c main_arg1 (((cfg0.win 1).blk t).view.emb (ix2 k e)) = _
  rw [V_main_arg1]
  refine congrArg _ (funext fun a => ?_)
  apply Fin.ext
  match a with
  | ⟨0, _⟩ => show win0_1.index t (0 : Fin 2) * 768 + 1 * k.val = k.val; omega
  | ⟨1, _⟩ => show win0_1.index t (1 : Fin 2) * 384 + 1 * e.val = e.val; omega

/-- The bias block of every point is the bias, as one row. -/
theorem blk_bias (c : Dev nD) (t : Fin cfg0.N) (e : Fin 384) :
    iblk m c 2 t (ix2 (0 : Fin 1) e) = (m ((c : Thread nD τ).loc main_arg2) : S384.Idx → EReal) (ix1 e) := by
  obtain ⟨-, -, -, -, -, -, e6, e7, -⟩ := idx_facts t
  unfold iblk
  show V m c main_v0 (((cfg0.win 2).blk t).view.emb (ix2 (0 : Fin 1) e)) = _
  have hemb : ((cfg0.win 2).blk t).view.emb (ix2 (0 : Fin 1) e) = ix2 (0 : Fin 1) e := by
    funext a
    apply Fin.ext
    match a with
    | ⟨0, _⟩ => show win0_2.index t (0 : Fin 2) * 1 + 1 * 0 = 0; omega
    | ⟨1, _⟩ => show win0_2.index t (1 : Fin 2) * 384 + 1 * e.val = e.val; omega
  rw [hemb, V_bias]
  exact shapeCast_a_1a_apply _ shapeCasts_S384_S1x384 (0 : Fin 1) e

/-! ## The carried scratch -/

/-- At the first grid point the scratch is left holding that point's weight block, regrouped. -/
theorem scratch_first (c : Dev nD) (t : Fin cfg0.N) (h0 : t.val % 8 = 0) :
    (outsAt0 m c t.val t.isLt).2 = k0_pay2 (iblk m c 1 t) := by
  rw [outsAt0_A m c t h0]
  dsimp only
  exact run_A_scratch (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0)
    (iblk m c 0 t) (iblk m c 1 t) (iblk m c 2 t)

/-- A later grid point leaves the scratch as the point before left it. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- So after every grid point its rows are the weight's rows re-ordered. -/
theorem scratch_apply (c : Dev nD) (n : ℕ) (hn : n < cfg0.N) (k : Fin 768) (e : Fin 384) :
    (outsAt0 m c n hn).2 (ix2 k e) = (m ((c : Thread nD τ).loc main_arg1) : S768x384.Idx → EReal) (ix2 (colPerm k) e) := by
  induction n using Nat.strong_induction_on with
  | _ n ih =>
    by_cases h0 : n % 8 = 0
    · exact (congrFun (scratch_first m c ⟨n, hn⟩ h0) (ix2 k e)).trans
        ((wperm_apply (iblk m c 1 ⟨n, hn⟩) k e).trans (blk_weight m c ⟨n, hn⟩ (colPerm k) e))
    · have hlt : n - 1 < n := by omega
      exact (congrFun (scratch_later m c ⟨n, hn⟩ h0) (ix2 k e)).trans (ih (n - 1) hlt _)

/-! ## What each point writes back, the cover, the array -/

/-- The embedding of the argument arrays. -/
abbrev result (c : Dev nD) : S64x196x384.Idx → EReal :=
  embed (m ((c : Thread nD τ).loc main_arg0)) (m ((c : Thread nD τ).loc main_arg1)) (m ((c : Thread nD τ).loc main_arg2))

/-- What point t writes back is block t of the embedding. -/
theorem flushed_eq (c : Dev nD) (t : Fin cfg0.N) :
    (dats m 0 c).flushed 3 t = ((cfg0.win 3).blk t).view.read (Elt Ideal) (result m c) := by
  have hN : t.val < 8 := lt_of_lt_of_eq t.isLt (show cfg0.N = 8 from N_0)
  obtain ⟨-, -, -, -, -, -, -, -, e8, e9, e10⟩ := idx_facts t
  funext j
  obtain ⟨i, n, e, rfl⟩ : ∃ (i : Fin 8) (n : Fin 196) (e : Fin 384), j = ix3 i n e := ⟨j 0, j 1, j 2, eq_ix3 j⟩
  have hemb : ((cfg0.win 3).blk t).view.emb (ix3 i n e)
      = ix3 (⟨8 * t.val + i.val, by have := i.isLt; omega⟩ : Fin 64) n e := by
    funext a
    apply Fin.ext
    match a with
    | ⟨0, _⟩ => show win0_3.index t (0 : Fin 3) * 8 + 1 * i.val = 8 * t.val + i.val; omega
    | ⟨1, _⟩ => show win0_3.index t (1 : Fin 3) * 196 + 1 * n.val = n.val; omega
    | ⟨2, _⟩ => show win0_3.index t (2 : Fin 3) * 384 + 1 * e.val = e.val; omega
  show (dats m 0 c).flushed 3 t (ix3 i n e) = result m c (((cfg0.win 3).blk t).view.emb (ix3 i n e))
  rw [hemb]
  by_cases h0 : t.val % 8 = 0
  · rw [flushed3_A m c t h0]
    refine (out_A_apply c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t) (ix3 i n e)).trans ?_
    exact point_eq (m ((c : Thread nD τ).loc main_arg0)) (m ((c : Thread nD τ).loc main_arg1)) (m ((c : Thread nD τ).loc main_arg2))
      t.val hN (iblk m c 0 t) (k0_pay2 (iblk m c 1 t)) (iblk m c 2 t) (blk_img m c t)
      (fun k e => (wperm_apply (iblk m c 1 t) k e).trans (blk_weight m c t (colPerm k) e)) (blk_bias m c t) i n e
  · rw [flushed3_B m c t h0]
    refine (out_B_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t)
      ((outsAt0 m c (t.val - 1) (Nat.lt_of_le_of_lt (Nat.sub_le _ _) t.isLt)).2) (ix3 i n e)).trans ?_
    exact point_eq (m ((c : Thread nD τ).loc main_arg0)) (m ((c : Thread nD τ).loc main_arg1)) (m ((c : Thread nD τ).loc main_arg2))
      t.val hN (iblk m c 0 t) ((outsAt0 m c (t.val - 1) (Nat.lt_of_le_of_lt (Nat.sub_le _ _) t.isLt)).2) (iblk m c 2 t) (blk_img m c t)
      (scratch_apply m c (t.val - 1) (Nat.lt_of_le_of_lt (Nat.sub_le _ _) t.isLt)) (blk_bias m c t) i n e

/-- An index of the result is in point t's block iff its first coordinate is in 8·t … 8·t + 7. -/
theorem mem_blk (t : Fin cfg0.N) (i : S64x196x384.Idx) :
    i ∈ ((cfg0.win 3).blk t).view.set ↔ ∀ a : Fin 3, win0_3.index t a * S8x196x384.size a ≤ (i a).val
      ∧ (i a).val < win0_3.index t a * S8x196x384.size a + S8x196x384.size a := by
  show i ∈ ((View.whole main_v1).slice (win0_3.rect t)).set ↔ _
  rw [View.set_slice_whole, Rect.mem_set_unit]
  exact Iff.rfl

/-- Every index of the result is in the block of the point that handles its image. -/
theorem cover (i : S64x196x384.Idx) :
    ∃ t : Fin cfg0.N, (cfg0.win 3).flush t = true ∧ i ∈ ((cfg0.win 3).blk t).view.set := by
  have h0 : (i 0).val < 64 := (i 0).isLt
  have h1 : (i 1).val < 196 := (i 1).isLt
  have h2 : (i 2).val < 384 := (i 2).isLt
  let t : Fin cfg0.N := ⟨(i 0).val / 8, by rw [show cfg0.N = 8 from N_0]; omega⟩
  have ht : t.val = (i 0).val / 8 := rfl
  obtain ⟨-, -, -, -, -, -, -, -, e8, e9, e10⟩ := idx_facts t
  refine ⟨t, flush0_3 t, ?_⟩
  rw [mem_blk]
  intro a
  match a with
  | ⟨0, _⟩ =>
    show win0_3.index t (0 : Fin 3) * 8 ≤ (i 0).val ∧ (i 0).val < win0_3.index t (0 : Fin 3) * 8 + 8
    omega
  | ⟨1, _⟩ =>
    show win0_3.index t (1 : Fin 3) * 196 ≤ (i 1).val ∧ (i 1).val < win0_3.index t (1 : Fin 3) * 196 + 196
    omega
  | ⟨2, _⟩ =>
    show win0_3.index t (2 : Fin 3) * 384 ≤ (i 2).val ∧ (i 2).val < win0_3.index t (2 : Fin 3) * 384 + 384
    omega

/-- The result array after the run is the embedding of the argument arrays. -/
theorem final (c : Dev nD) : (dats m 0 c).arrAt 3 cfg0.N = result m c :=
  (dats m 0 c).arrAt_eq_of_cover 3 (result m c) (fun t _ => flushed_eq m c t) cover

/-- The kernel's run: the result is the patch embedding of the arguments, which end unchanged. -/
theorem run : θ_run (defs (F := Ideal)) (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KValue

end
-- ==== Proof.RefHost.lean ====
/-
  The arrays the region finds: the patch rows and the bias row.

  Before the region the image batch x[b, c, y, z] is viewed as x[b, c, h, p1, w, p2] (y = 16·h + p1, z = 16·w + p2),
  transposed to [b, h, w, p1, p2, c] and flattened to 12544 rows of 768 columns: row 196·b + 14·h + w, column
  (16·p1 + p2)·3 + c holds x[b, c, 16·h + p1, 16·w + p2] — entry k of patch n = 14·h + w of image b, the patch
  flattened in the order (p1, p2, c).  The bias vector is viewed as one row.  Both are reshapes and one transposition,
  so each entry of the result is one entry of the operand, found by comparing row-major positions.
-/
import proofs.«135801_g2000606297638142_pallasbulk_1298_37_alg».proof.Proof.Gen.ReferenceIdeal.Frame
import proofs.«135801_g2000606297638142_pallasbulk_1298_37_alg».proof.Proof.PatchSpec
import proofs.«135801_g2000606297638142_pallasbulk_1298_37_alg».proof.Proof.LibDense
import proofs.«135801_g2000606297638142_pallasbulk_1298_37_alg».proof.Proof.LibRowBlocks
import Idealize.ShloMosaic.Lib.ValueIdxRank6
import Idealize.ShloMosaic.Lib.Pipeline.Value
import Idealize.ShloMosaic.Lib.ValueLayout

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)
open Cert.PatchEmbed

/-- The patch rows at row 196·b + n, column k: entry k of patch n of image b. -/
theorem patchRows_apply (x : Img)
    (h1 : S64x3x224x224.ShapeCasts S64x3x14x16x14x16)
    (h2 : S64x3x14x16x14x16.Transposes [0, 2, 4, 3, 5, 1] S64x14x14x16x16x3)
    (h3 : S64x14x14x16x16x3.ShapeCasts S12544x768)
    (r : Fin 12544) (k : Fin 768) (b : Fin 64) (n : Fin 196) (hr : r.val = 196 * b.val + n.val) :
    shapeCast S12544x768 (transpose S64x14x14x16x16x3 [0, 2, 4, 3, 5, 1] (shapeCast S64x3x14x16x14x16 x h1) h2) h3 (ix2 r k)
      = pix x b n k := by
  have hn := n.isLt
  have hk := k.isLt
  have hb := b.isLt
  refine (shapeCast_apply _ h3 (ix2 r k)
    (ix6 b (⟨n.val / 14, by omega⟩ : Fin 14) (⟨n.val % 14, by omega⟩ : Fin 14) (⟨k.val / 48, by omega⟩ : Fin 16)
      (⟨k.val / 3 % 16, by omega⟩ : Fin 16) (⟨k.val % 3, by omega⟩ : Fin 3)) ?_).trans ?_
  · rw [Shape.rowMajor_val_six, Shape.rowMajor_val_two]
    show ((((b.val * 14 + n.val / 14) * 14 + n.val % 14) * 16 + k.val / 48) * 16 + k.val / 3 % 16) * 3 + k.val % 3
      = r.val * 768 + k.val
    omega
  refine (transpose_apply _ _ h2 _
    (ix6 b (⟨k.val % 3, by omega⟩ : Fin 3) (⟨n.val / 14, by omega⟩ : Fin 14) (⟨k.val / 48, by omega⟩ : Fin 16)
      (⟨n.val % 14, by omega⟩ : Fin 14) (⟨k.val / 3 % 16, by omega⟩ : Fin 16)) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
  refine (shapeCast_apply x h1 _
    (ix4 b (⟨k.val % 3, Nat.mod_lt _ (by norm_num)⟩ : Fin 3)
      (⟨n.val / 14 * 16 + k.val / 48, by omega⟩ : Fin 224)
      (⟨n.val % 14 * 16 + k.val / 3 % 16, by omega⟩ : Fin 224)) ?_).trans ?_
  · rw [Shape.rowMajor_val_four, Shape.rowMajor_val_six]
    show ((b.val * 3 + k.val % 3) * 224 + (n.val / 14 * 16 + k.val / 48)) * 224 + (n.val % 14 * 16 + k.val / 3 % 16)
      = ((((b.val * 3 + k.val % 3) * 14 + n.val / 14) * 16 + k.val / 48) * 14 + n.val % 14) * 16 + k.val / 3 % 16
    omega
  rfl

variable (m : (ℓ : Loc nD τ sig) → Buf (Elt Ideal) ℓ)

/-- The patch rows as the region finds them: the image batch viewed in patches, transposed and flattened. -/
theorem V_rows (c : Dev nD) : (V m c main_call0_v2 : S12544x768.Idx → EReal) =
    shapeCast S12544x768 (transpose S64x14x14x16x16x3 [0, 2, 4, 3, 5, 1]
      (shapeCast S64x3x14x16x14x16 (m ((c : Thread nD τ).loc main_arg0) : S64x3x224x224.Idx → EReal) shapeCasts_S64x3x224x224_S64x3x14x16x14x16)
      transposes_S64x3x14x16x14x16_S64x14x14x16x16x3_0_2_4_3_5_1) shapeCasts_S64x14x14x16x16x3_S12544x768 := by
  show StableHlo.after hostOps0 (fun b => m (c, b)) (Proc.devRef .tc main_call0_v2) = _
  after_results
  rfl

/-- The bias row as the region finds it: the bias vector viewed as one row. -/
theorem V_biasRow (c : Dev nD) : (V m c main_call0_v3 : S1x384.Idx → EReal) =
    Cert.Dense.row (m ((c : Thread nD τ).loc main_arg2) : S384.Idx → EReal) := by
  show StableHlo.after hostOps0 (fun b => m (c, b)) (Proc.devRef .tc main_call0_v3) = _
  after_results
  exact Cert.Dense.shapeCast_row (m ((c : Thread nD τ).loc main_arg2) : S384.Idx → EReal) shapeCasts_S384_S1x384

/-- The patch rows read at an entry. -/
theorem V_rows_apply (c : Dev nD) (r : Fin 12544) (k : Fin 768) (b : Fin 64) (n : Fin 196) (hr : r.val = 196 * b.val + n.val) :
    (V m c main_call0_v2 : S12544x768.Idx → EReal) (ix2 r k) = pix (m ((c : Thread nD τ).loc main_arg0)) b n k := by
  rw [V_rows m c]
  exact patchRows_apply _ _ _ _ r k b n hr

end Cert.ReferenceIdeal.RefValue

end
-- ==== Proof.RefBlock.lean ====
/-
  What one grid point writes back.

  At point t the body multiplies rows 256·t … 256·t + 255 of the patch rows by the whole weight matrix into a zero
  accumulator and adds the bias row to every row of the product.  An entry of a matrix product depends on one row of
  the left operand, and the bias added to it on its column only, so the block written back is rows 256·t … 256·t + 255
  of one array: the patch rows times the weight matrix plus the bias row.
-/
import proofs.«135801_g2000606297638142_pallasbulk_1298_37_alg».proof.Proof.Gen.ReferenceIdeal.Frame
import proofs.«135801_g2000606297638142_pallasbulk_1298_37_alg».proof.Proof.PatchSpec
import proofs.«135801_g2000606297638142_pallasbulk_1298_37_alg».proof.Proof.LibDense
import proofs.«135801_g2000606297638142_pallasbulk_1298_37_alg».proof.Proof.LibBiasRow
import Idealize.ShloMosaic.Lib.Pipeline.Value
import Idealize.ShloMosaic.Lib.ValueLayout

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)
open Cert.Dense Cert.BiasRow

/-- The array the region leaves, in closed form: the patch rows times the weight matrix, plus the bias row. -/
def affine (P : Mat 12544 768) (W : Mat 768 384) (B : Mat 1 384) : Mat 12544 384 := addRow (mm P W) B

theorem affine_apply (P : Mat 12544 768) (W : Mat 768 384) (B : Mat 1 384) (r : Fin 12544) (e : Fin 384) :
    affine P W B (ix2 r e) = (∑ k : Fin 768, P (ix2 r k) * W (ix2 k e)) + B (ix2 (0 : Fin 1) e) := rfl

theorem hz : (![0, 0] : Fin 2 → Nat) = fun _ => 0 := funext fun a => by fin_cases a <;> rfl

/-- The body's value on its three blocks: their product into the zero accumulator, plus the bias row on every row. -/
theorem pay_eq (x0 : Vec Ideal S256x768 .f32) (x1 : Vec Ideal S768x384 .f32) (x2 : Vec Ideal S1x384 .f32) :
    k0_pay1 (F := Ideal) x0 x1 x2 = addRow (mm x0 x1) x2 := by
  unfold k0_pay1
  simp only [shapeCast_self]
  rw [matmul_zero_eq_mm _ rfl rfl rfl rfl rfl rfl]
  exact vecAddRow _ _ _

/-- The printed index maps over the grid: the patch rows' block moves with the output's along the rows, every other
    block index is zero, and the output's row block at point t is t. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ)

/-- The patch rows' block at point t: row y of the block is row (output row block)·256 + y of the array. -/
theorem rowsBlock_apply (c : Dev nD) (t : Fin cfg0.N) (y : S256x768.Idx) (z : S12544x768.Idx)
    (h0 : (z 0).val = win0_3.index t (0 : Fin 2) * 256 + (y 0).val) (h1 : (z 1).val = (y 1).val) :
    (iblk m c 0 t : Vec Ideal S256x768 .f32) y = (V m c main_call0_v2 : S12544x768.Idx → EReal) z := by
  obtain ⟨e0, e1, -⟩ := idx_facts t
  unfold iblk
  rw [View.read_apply]
  show (V m c main_call0_v2 : S12544x768.Idx → EReal) _ = (V m c main_call0_v2 : S12544x768.Idx → EReal) z
  refine congrArg (V m c main_call0_v2 : S12544x768.Idx → EReal) (funext fun a => Fin.ext ?_)
  match a with
  | ⟨0, _⟩ => show win0_0.index t (0 : Fin 2) * 256 + 1 * (y 0).val = (z 0).val; omega
  | ⟨1, _⟩ => show win0_0.index t (1 : Fin 2) * 768 + 1 * (y 1).val = (z 1).val; omega

/-- The weight's block at every point is the whole weight matrix. -/
theorem weightBlock_eq (c : Dev nD) (t : Fin cfg0.N) :
    (iblk m c 1 t : Vec Ideal S768x384 .f32) = (V m c main_arg1 : S768x384.Idx → EReal) := by
  obtain ⟨-, -, e2, e3, -⟩ := idx_facts t
  funext y
  unfold iblk
  rw [View.read_apply]
  show (V m c main_arg1 : S768x384.Idx → EReal) _ = (V m c main_arg1 : S768x384.Idx → EReal) y
  refine congrArg (V m c main_arg1 : S768x384.Idx → EReal) (funext fun a => Fin.ext ?_)
  match a with
  | ⟨0, _⟩ => show win0_1.index t (0 : Fin 2) * 768 + 1 * (y 0).val = (y 0).val; omega
  | ⟨1, _⟩ => show win0_1.index t (1 : Fin 2) * 384 + 1 * (y 1).val = (y 1).val; omega

/-- The bias row's block at every point is the whole bias row. -/
theorem biasBlock_eq (c : Dev nD) (t : Fin cfg0.N) :
    (iblk m c 2 t : Vec Ideal S1x384 .f32) = (V m c main_call0_v3 : S1x384.Idx → EReal) := by
  obtain ⟨-, -, -, -, e4, e5, -⟩ := idx_facts t
  funext y
  unfold iblk
  rw [View.read_apply]
  show (V m c main_call0_v3 : S1x384.Idx → EReal) _ = (V m c main_call0_v3 : S1x384.Idx → EReal) y
  refine congrArg (V m c main_call0_v3 : S1x384.Idx → EReal) (funext fun a => Fin.ext ?_)
  match a with
  | ⟨0, _⟩ => show win0_2.index t (0 : Fin 2) * 1 + 1 * (y 0).val = (y 0).val; omega
  | ⟨1, _⟩ => show win0_2.index t (1 : Fin 2) * 384 + 1 * (y 1).val = (y 1).val; omega

/-- The product of the blocks plus the bias row, at entry j of the block, is the closed form at the array entry i that
    j sits on. -/
theorem block_at (c : Dev nD) (t : Fin cfg0.N) (j : S256x384.Idx) (i : S12544x384.Idx)
    (h0 : (i 0).val = win0_3.index t (0 : Fin 2) * 256 + (j 0).val) (h1 : (i 1).val = (j 1).val) :
    addRow (mm (iblk m c 0 t : Vec Ideal S256x768 .f32) (iblk m c 1 t : Vec Ideal S768x384 .f32)) (iblk m c 2 t : Vec Ideal S1x384 .f32) j
      = affine (V m c main_call0_v2) (V m c main_arg1) (V m c main_call0_v3) i := by
  rw [weightBlock_eq m c t, biasBlock_eq m c t]
  unfold affine
  have hc1 : (c1 j : Fin 384) = c1 i := Fin.ext h1.symm
  refine addRow_at _ _ _ _ j i (mm_at _ _ _ _ j i (fun k => ?_) (fun k => ?_)) ?_
  · exact rowsBlock_apply m c t _ _ h0 rfl
  · rw [hc1]
  · rw [hc1]

/-- What point t writes back is block t of the closed form. -/
theorem flushed_eq (c : Dev nD) (t : Fin cfg0.N) :
    (dats m 0 c).flushed 3 t = ((cfg0.win 3).blk t).view.read (Elt Ideal)
      (affine (V m c main_call0_v2) (V m c main_arg1) (V m c main_call0_v3)) := by
  show (cfg0.win 3).cut (grid0.coords t) ((dats m 0 c).after 3 t) = _
  rw [after0_3]
  unfold out0_3
  rw [View.canon_unit_zero hz]
  simp only [View.ld_unit_zero (S := S256x768) hz, View.ld_unit_zero (S := S768x384) hz, View.ld_unit_zero (S := S1x384) hz]
  obtain ⟨-, -, -, -, -, -, -, e7⟩ := idx_facts t
  funext j
  refine (congrFun (pay_eq (iblk m c 0 t) (iblk m c 1 t) (iblk m c 2 t)) j).trans ?_
  refine block_at m c t j _ ?_ ?_
  · show win0_3.index t (0 : Fin 2) * 256 + 1 * (j 0).val = win0_3.index t (0 : Fin 2) * 256 + (j 0).val; omega
  · show win0_3.index t (1 : Fin 2) * 384 + 1 * (j 1).val = (j 1).val; omega

end Cert.ReferenceIdeal.RefValue

end
-- ==== Proof.RefArray.lean ====
/-
  The array the region leaves.

  The output's block at point t is rows 256·t … 256·t + 255 and all 384 columns; 49 blocks of 256 rows are the 12544
  rows exactly, so row r lies in the block of point r / 256 and the blocks cover the array.  Every point writes back a
  block of one closed form, so the array ends holding that closed form.
-/
import proofs.«135801_g2000606297638142_pallasbulk_1298_37_alg».proof.Proof.RefBlock

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)
open Cert.Dense Cert.BiasRow

/-- An entry of the array is in point t's block iff each coordinate is in the block's range on its axis. -/
theorem mem_blk (t : Fin cfg0.N) (i : S12544x384.Idx) :
    i ∈ ((cfg0.win 3).blk t).view.set ↔ ∀ a : Fin 2, win0_3.index t a * S256x384.size a ≤ (i a).val
      ∧ (i a).val < win0_3.index t a * S256x384.size a + S256x384.size a := by
  show i ∈ ((View.whole main_call0_v4).slice (win0_3.rect t)).set ↔ _
  rw [View.set_slice_whole, Rect.mem_set_unit]
  exact Iff.rfl

/-- Every entry of the array is in the block of the point its row names. -/
theorem cover (i : S12544x384.Idx) :
    ∃ t : Fin cfg0.N, (cfg0.win 3).flush t = true ∧ i ∈ ((cfg0.win 3).blk t).view.set := by
  have hi0 : (i 0).val < 12544 := (i 0).isLt
  have hi1 : (i 1).val < 384 := (i 1).isLt
  have hN : cfg0.N = 49 := N_0
  have ht : (i 0).val / 256 < cfg0.N := by rw [hN]; omega
  obtain ⟨-, -, -, -, -, -, e6, e7⟩ := idx_facts ⟨(i 0).val / 256, ht⟩
  have e6' : win0_3.index ⟨(i 0).val / 256, ht⟩ (0 : Fin 2) = (i 0).val / 256 := e6
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e6']; omega
  | ⟨1, _⟩ =>
    show win0_3.index ⟨(i 0).val / 256, ht⟩ (1 : Fin 2) * 384 ≤ (i 1).val
      ∧ (i 1).val < win0_3.index ⟨(i 0).val / 256, ht⟩ (1 : Fin 2) * 384 + 384
    rw [e7]; omega

variable (m : (ℓ : Loc nD τ sig) → Buf (Elt Ideal) ℓ)

/-- The array after the region: the patch rows times the weight matrix, plus the bias row. -/
theorem final (c : Dev nD) : (dats m 0 c).arrAt 3 cfg0.N
    = affine (V m c main_call0_v2) (V m c main_arg1) (V m c main_call0_v3) :=
  (dats m 0 c).arrAt_eq_of_cover 3 (affine (V m c main_call0_v2) (V m c main_arg1) (V m c main_call0_v3))
    (fun t _ => flushed_eq m c t) cover

end Cert.ReferenceIdeal.RefValue

end
-- ==== Proof.RefRun.lean ====
/-
  The reference's result.

  After the region the 12544 × 384 array — the patch rows times the weight matrix plus the bias row — is viewed as
  64 × 196 × 384: entry (b, n, e) is row 196·b + n, column e.  Row 196·b + n of the patch rows is patch n of image b
  flattened in the order (p1, p2, c), and the bias row is the bias vector, so the result at (b, n, e) is the sum over
  the 768 entries k of the patch of entry k times the weight at (k, e), plus the bias at e: the patch embedding.  The
  three arguments end as they were launched.
-/
import proofs.«135801_g2000606297638142_pallasbulk_1298_37_alg».proof.Proof.RefHost
import proofs.«135801_g2000606297638142_pallasbulk_1298_37_alg».proof.Proof.RefArray

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)
open Cert.Dense Cert.BiasRow Cert.PatchEmbed

variable (m : (ℓ : Loc nD τ sig) → Buf (Elt Ideal) ℓ)

/-- What the lines after the region find in the region's output array: the closed form. -/
theorem region_array (c : Dev nD) :
    Pipeline.withArrays (cfgs 0).spec c (V0 m c) (fun w => (dats m 0 c).arrAt w (cfgs 0).N) (Proc.devRef .tc main_call0_v4)
      = affine (V m c main_call0_v2) (V m c main_arg1) (V m c main_call0_v3) :=
  (Pipeline.withArrays_arr spec0 launch0.win.arr_inj c _ _ 3).trans (final m c)

/-- The result buffer after the run is the patch embedding of the three arguments. -/
theorem result_eq (c : Dev nD) :
    Pipeline.afterTail₀ cfgs (dats m) 0 (V0 m) [hostOps1] c main_v0
      = embed (m ((c : Thread nD τ).loc main_arg0)) (m ((c : Thread nD τ).loc main_arg1)) (m ((c : Thread nD τ).loc main_arg2)) := by
  unfold Pipeline.afterTail₀
  show StableHlo.after hostOps1 _ (Proc.devRef .tc main_v0) = _
  after_results
  refine (congrArg (fun A : S12544x384.Idx → EReal => shapeCast S64x196x384 A shapeCasts_S12544x384_S64x196x384)
    (region_array m c)).trans ?_
  funext i
  obtain ⟨b, n, e, rfl⟩ : ∃ (b : Fin 64) (n : Fin 196) (e : Fin 384), i = ix3 b n e := ⟨i 0, i 1, i 2, eq_ix3 i⟩
  have hq : 196 * b.val + n.val < 12544 := by have := b.isLt; have := n.isLt; omega
  rw [embed_apply]
  refine (Cert.RowBlocks.shapeCast_split_apply _ shapeCasts_S12544x384_S64x196x384 b n e ⟨196 * b.val + n.val, hq⟩
    (by show 196 * b.val + n.val = b.val * 196 + n.val; omega)).trans ?_
  rw [affine_apply]
  refine congrArg₂ (· + ·) (Finset.sum_congr rfl fun k _ => ?_) ?_
  · rw [V_rows_apply m c ⟨196 * b.val + n.val, hq⟩ k b n rfl, V_main_arg1]
  · rw [V_biasRow]
    rfl

/-- The run, read: the result is the patch embedding of the arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.PatchEmbed.embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.RefValue

end
-- ==== Proof.lean ====
/-
  The patch-embedding kernel against its reference, on the extended reals.

  Both programs cut the image batch x[b, c, y, z] (64 × 3 × 224 × 224) into 14 × 14 patches of 16 × 16 pixels, flatten
  each patch to 768 numbers, multiply by the weight matrix w[768, 384] into a zero accumulator and add the bias.  The
  reference flattens a patch in the order (p1, p2, c) on the host and multiplies blocks of 256 patch rows by w.  The
  kernel takes eight images per grid point, flattens a patch in the order (p2, c, p1) by shape casts, two transposes and a
  tree of concatenations, and multiplies by the weight with its rows regrouped into the same order, which it computes at
  the first grid point and keeps in a scratch buffer.  Read exactly (a change of float format is the identity) both
  results are, at (b, n, e), the sum over the 768 entries of patch n of image b of entry times weight, plus bias(e):
  the kernel's sum runs over the same 768 products in another order, and a finite sum of extended reals may be re-indexed
  along a bijection (`Cert.PatchEmbed.sum_colPerm`).  Nothing asks the inputs to be finite, so the precondition is not
  opened.

  `Cert.PatchEmbed.embed` (Proof/PatchSpec.lean) is the common function; Proof/KernelValue.lean shows the kernel's
  result array is `embed` of the arguments (over Proof/KernelLayout, KernelRegroup, KernelImage, KernelPieces,
  KernelBlock), Proof/RefRun.lean the reference's (over Proof/RefHost, RefBlock, RefArray).  The three frames are the
  generated ones; the idealization rewrote nothing, so `preserves` is `True`.
-/
import proofs.«135801_g2000606297638142_pallasbulk_1298_37_alg».proof.Defs
import proofs.«135801_g2000606297638142_pallasbulk_1298_37_alg».proof.Proof.Gen.Kernel
import proofs.«135801_g2000606297638142_pallasbulk_1298_37_alg».proof.Proof.Gen.Kernel.Frame
import proofs.«135801_g2000606297638142_pallasbulk_1298_37_alg».proof.Proof.Gen.KernelIdeal
import proofs.«135801_g2000606297638142_pallasbulk_1298_37_alg».proof.Proof.Gen.KernelIdeal.Frame
import proofs.«135801_g2000606297638142_pallasbulk_1298_37_alg».proof.Proof.Gen.KernelIdeal.Value
import proofs.«135801_g2000606297638142_pallasbulk_1298_37_alg».proof.Proof.Gen.ReferenceIdeal
import proofs.«135801_g2000606297638142_pallasbulk_1298_37_alg».proof.Proof.Gen.ReferenceIdeal.Frame
import proofs.«135801_g2000606297638142_pallasbulk_1298_37_alg».proof.Proof.Gen.Pre_finite_inputs
import proofs.«135801_g2000606297638142_pallasbulk_1298_37_alg».proof.Proof.KernelValue
import proofs.«135801_g2000606297638142_pallasbulk_1298_37_alg».proof.Proof.RefRun
import Idealize.ShloMosaic.Adequacy
import Idealize.ShloMosaic.Init

noncomputable section

namespace Cert.Proof

open Idealize.ShloMosaic Idealize.SL.Sem

/-- The three programs run, fault nowhere, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the three arguments both programs end with the patch embedding of those arguments in their
    result arrays: the kernel by `KValue.run`, the reference by `RefValue.run`. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
